-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S400000 : Shape := ⟨1, ![400000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S512x40 .f32) (main_arg10 : FVec F S40 .f32) (main_v33 : IVec S_ 1) : IVec S_ 1 :=
  let main_v34 : FVec F S512x40 .f32 := Host.absf main_arg9
  let main_cst_12 : FVec F S_ .f32 := constant S_ .f32 0x7F800000#32
  let main_v35 : FVec F S512x40 .f32 := broadcastInDim S512x40 ![] bcast_S_S512x40 main_cst_12
  let main_v36 : IVec S512x40 1 := cmpf .olt main_v34 main_v35
  let main_c_13 : IVec S_ 1 := constantI S_ 1 1#1
  let main_v37 : IVec S_ 1 := (fun x v => Host.reduce IntOp.andi x v reducesTo_S512x40_S_d0_1 h_S_) main_v36 main_c_13
  let main_v38 : IVec S_ 1 := andi main_v33 main_v37
  let main_v39 : FVec F S40 .f32 := Host.absf main_arg10
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg6 : FVec F S512 .f32) (main_arg7 : FVec F S512x512 .f32) (main_arg8 : FVec F S512 .f32) (main_arg9 : FVec F S512x40 .f32) (main_arg10 : FVec F S40 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg7
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg9 main_arg10 main_v33

def fn {F : FTy → Type} [FloatOps F] (main_arg0 : FVec F S50000x512 .f32) (main_arg1 : IVec S400000 32) (main_arg2 : IVec S400000 32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x40 .f32) (main_arg10 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x512 .f32 := Host.absf main_arg3
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_v13 main_v16
-- ==== Kernel.lean ====
abbrev S50000x512 : Shape := ⟨2, ![50000, 512]⟩
abbrev S400000 : Shape := ⟨1, ![400000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S_ : Shape := ⟨0, ![]⟩
abbrev S400000x1 : Shape := ⟨2, ![400000, 1]⟩
abbrev S400000x512 : Shape := ⟨2, ![400000, 512]⟩
abbrev S1x512 : Shape := ⟨2, ![1, 512]⟩
abbrev S2000x512 : Shape := ⟨2, ![2000, 512]⟩
abbrev S512x128 : Shape := ⟨2, ![512, 128]⟩
abbrev S128 : Shape := ⟨1, ![128]⟩
abbrev S1x128 : Shape := ⟨2, ![1, 128]⟩
abbrev S50000x128 : Shape := ⟨2, ![50000, 128]⟩
abbrev S2000x128 : Shape := ⟨2, ![2000, 128]⟩
abbrev S50000x40 : Shape := ⟨2, ![50000, 40]⟩

abbrev nBuf : Space → Nat
  | .hbm => 65
  | .vmem => 30
  | .smem => 0
  | _ => 0

abbrev bufTy : (tb : Table) → Fin (tcTables nBuf tb) → BufTy
  | .hbm, ⟨0, _⟩ => ⟨S50000x512, .f32⟩
  | .hbm, ⟨1, _⟩ => ⟨S400000, .i32⟩
  | .hbm, ⟨2, _⟩ => ⟨S400000, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x40, .f32⟩
  | .hbm, ⟨10, _⟩ => ⟨S40, .f32⟩
  | .hbm, ⟨11, _⟩ => ⟨S_, .i32⟩
  | .hbm, ⟨12, _⟩ => ⟨S400000, .i32⟩
  | .hbm, ⟨13, _⟩ => ⟨S400000, .i1⟩
  | .hbm, ⟨14, _⟩ => ⟨S_, .i32⟩
  | .hbm, ⟨15, _⟩ => ⟨S400000, .i32⟩
  | .hbm, ⟨16, _⟩ => ⟨S400000, .i32⟩
  | .hbm, ⟨17, _⟩ => ⟨S400000, .i32⟩
  | .hbm, ⟨18, _⟩ => ⟨S400000x1, .i32⟩
  | .hbm, ⟨19, _⟩ => ⟨S400000x512, .f32⟩
  | .hbm, ⟨20, _⟩ => ⟨S_, .f32⟩
  | .hbm, ⟨21, _⟩ => ⟨S50000x512, .f32⟩
  | .hbm, ⟨22, _⟩ => ⟨S400000x1, .i32⟩
  | .hbm, ⟨23, _⟩ => ⟨S50000x512, .f32⟩
  | .hbm, ⟨24, _⟩ => ⟨S1x512, .f32⟩
  | .hbm, ⟨25, _⟩ => ⟨S50000x512, .f32⟩
  | .hbm, ⟨26, _⟩ => ⟨S_, .i32⟩
  | .hbm, ⟨27, _⟩ => ⟨S400000, .i32⟩
  | .hbm, ⟨28, _⟩ => ⟨S400000, .i1⟩
  | .hbm, ⟨29, _⟩ => ⟨S_, .i32⟩
  | .hbm, ⟨30, _⟩ => ⟨S400000, .i32⟩
  | .hbm, ⟨31, _⟩ => ⟨S400000, .i32⟩
  | .hbm, ⟨32, _⟩ => ⟨S400000, .i32⟩
  | .hbm, ⟨33, _⟩ => ⟨S400000x1, .i32⟩
  | .hbm, ⟨34, _⟩ => ⟨S400000x512, .f32⟩
  | .hbm, ⟨35, _⟩ => ⟨S_, .f32⟩
  | .hbm, ⟨36, _⟩ => ⟨S50000x512, .f32⟩
  | .hbm, ⟨37, _⟩ => ⟨S400000x1, .i32⟩
  | .hbm, ⟨38, _⟩ => ⟨S50000x512, .f32⟩
  | .hbm, ⟨39, _⟩ => ⟨S1x512, .f32⟩
  | .hbm, ⟨40, _⟩ => ⟨S50000x512, .f32⟩
  | .hbm, ⟨41, _⟩ => ⟨S_, .i32⟩
  | .hbm, ⟨42, _⟩ => ⟨S400000, .i32⟩
  | .hbm, ⟨43, _⟩ => ⟨S400000, .i1⟩
  | .hbm, ⟨44, _⟩ => ⟨S_, .i32⟩
  | .hbm, ⟨45, _⟩ => ⟨S400000, .i32⟩
  | .hbm, ⟨46, _⟩ => ⟨S400000, .i32⟩
  | .hbm, ⟨47, _⟩ => ⟨S400000, .i32⟩
  | .hbm, ⟨48, _⟩ => ⟨S400000x1, .i32⟩
  | .hbm, ⟨49, _⟩ => ⟨S400000x512, .f32⟩
  | .hbm, ⟨50, _⟩ => ⟨S_, .f32⟩
  | .hbm, ⟨51, _⟩ => ⟨S50000x512, .f32⟩
  | .hbm, ⟨52, _⟩ => ⟨S400000x1, .i32⟩
  | .hbm, ⟨53, _⟩ => ⟨S50000x512, .f32⟩
  | .hbm, ⟨54, _⟩ => ⟨S1x512, .f32⟩
  | .hbm, ⟨55, _⟩ => ⟨S50000x512, .f32⟩
  | .hbm, ⟨56, _⟩ => ⟨S_, .i32⟩
  | .hbm, ⟨57, _⟩ => ⟨S_, .f32⟩
  | .hbm, ⟨58, _⟩ => ⟨S512x128, .f32⟩
  | .hbm, ⟨59, _⟩ => ⟨S_, .i32⟩
  | .hbm, ⟨60, _⟩ => ⟨S_, .f32⟩
  | .hbm, ⟨61, _⟩ => ⟨S128, .f32⟩
  | .hbm, ⟨62, _⟩ => ⟨S1x128, .f32⟩
  | .hbm, ⟨63, _⟩ => ⟨S50000x128, .f32⟩
  | .hbm, ⟨64, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S512x512, .f32⟩
  | .local _ .vmem, ⟨5, _⟩ => ⟨S1x512, .f32⟩
  | .local _ .vmem, ⟨6, _⟩ => ⟨S2000x512, .f32⟩
  | .local _ .vmem, ⟨7, _⟩ => ⟨S2000x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S512x512, .f32⟩
  | .local _ .vmem, ⟨13, _⟩ => ⟨S1x512, .f32⟩
  | .local _ .vmem, ⟨14, _⟩ => ⟨S2000x512, .f32⟩
  | .local _ .vmem, ⟨15, _⟩ => ⟨S2000x512, .f32⟩
  | .local _ .vmem, ⟨16, _⟩ => ⟨S2000x512, .f32⟩
  | .local _ .vmem, ⟨17, _⟩ => ⟨S2000x512, .f32⟩
  | .local _ .vmem, ⟨18, _⟩ => ⟨S2000x512, .f32⟩
  | .local _ .vmem, ⟨19, _⟩ => ⟨S2000x512, .f32⟩
  | .local _ .vmem, ⟨20, _⟩ => ⟨S512x512, .f32⟩
  | .local _ .vmem, ⟨21, _⟩ => ⟨S1x512, .f32⟩
  | .local _ .vmem, ⟨22, _⟩ => ⟨S2000x512, .f32⟩
  | .local _ .vmem, ⟨23, _⟩ => ⟨S2000x512, .f32⟩
  | .local _ .vmem, ⟨24, _⟩ => ⟨S2000x512, .f32⟩
  | .local _ .vmem, ⟨25, _⟩ => ⟨S2000x512, .f32⟩
  | .local _ .vmem, ⟨26, _⟩ => ⟨S512x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_call0_v0 : Ref sig .tc := ⟨.hbm, 57, rfl⟩
abbrev main_v36 : Ref sig .tc := ⟨.hbm, 58, rfl⟩
abbrev main_c_8 : Ref sig .tc := ⟨.hbm, 59, rfl⟩
abbrev main_call1_v0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S50000x512 : S_.BroadcastsInDim S50000x512 (![] : Fin 0 → Fin S50000x512.rank)
  shapeCasts_S512_S1x512 : S512.ShapeCasts S1x512
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  pads_S512x40_S512x128_000_0880 : S512x40.Pads (![0, 0] : Fin 2 → Nat) ![0, 88] ![0, 0] S512x128
  h_S_ : 0 < S_.numel
  pads_S40_S128_0880 : S40.Pads (![0] : Fin 1 → Nat) ![88] ![0] S128
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S50000x128_S50000x40_0_0 : S50000x128.Slices ![0, 0] S50000x40
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S2000x512_S512x512_S2000x512_1_0_0_1_n_n_wf : DotDims.WF S2000x512 S512x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S50000x512.size a
  hwx0_1 : ∀ i : grid0.Coords, EltTy.bits .f32 = 32 ∨ (Rect.block (s := S50000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S50000x512.size a
  hwx0_4 : ∀ i : grid0.Coords, EltTy.bits .f32 = 32 ∨ (Rect.block (s := S50000x512) S2000x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .f32 = 32 ∨ (Rect.block (s := S50000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S50000x512.size a
  hwx1_1 : ∀ i : grid1.Coords, EltTy.bits .f32 = 32 ∨ (Rect.block (s := S50000x512) S2000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x512.size a ≤ S50000x512.size a
  hwx1_4 : ∀ i : grid1.Coords, EltTy.bits .f32 = 32 ∨ (Rect.block (s := S50000x512) S2000x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x512.size a ≤ S50000x512.size a
  hwx2_1 : ∀ i : grid2.Coords, EltTy.bits .f32 = 32 ∨ (Rect.block (s := S50000x512) S2000x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .f32 = 32 ∨ (Rect.block (s := S512x512) S512x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x512.size a ≤ S50000x512.size a
  hwx2_4 : ∀ i : grid2.Coords, EltTy.bits .f32 = 32 ∨ (Rect.block (s := S50000x512) S2000x512.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S50000x512.size a
  hwx3_0 : ∀ i : grid3.Coords, EltTy.bits .f32 = 32 ∨ (Rect.block (s := S50000x512) S2000x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x128.size a ≤ S512x128.size a
  hwx3_1 : ∀ i : grid3.Coords, EltTy.bits .f32 = 32 ∨ (Rect.block (s := S512x128) S512x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)

variable [Facts₀]

def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S2000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S2000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v23) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S2000x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S2000x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v35) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S512x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x512 : Shape := ⟨2, ![50000, 512]⟩
abbrev S400000 : Shape := ⟨1, ![400000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S_ : Shape := ⟨0, ![]⟩
abbrev S400000x1 : Shape := ⟨2, ![400000, 1]⟩
abbrev S400000x512 : Shape := ⟨2, ![400000, 512]⟩
abbrev S1x512 : Shape := ⟨2, ![1, 512]⟩
abbrev S50000x40 : Shape := ⟨2, ![50000, 40]⟩
abbrev S1x40 : Shape := ⟨2, ![1, 40]⟩

abbrev nBuf : Space → Nat
  | .hbm => 78
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S400000, .i32⟩
  | .hbm, ⟨2, _⟩ => ⟨S400000, .i32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x40, .f32⟩
  | .hbm, ⟨10, _⟩ => ⟨S40, .f32⟩
  | .hbm, ⟨11, _⟩ => ⟨S_, .i32⟩
  | .hbm, ⟨12, _⟩ => ⟨S400000, .i32⟩
  | .hbm, ⟨13, _⟩ => ⟨S400000, .i1⟩
  | .hbm, ⟨14, _⟩ => ⟨S_, .i32⟩
  | .hbm, ⟨15, _⟩ => ⟨S400000, .i32⟩
  | .hbm, ⟨16, _⟩ => ⟨S400000, .i32⟩
  | .hbm, ⟨17, _⟩ => ⟨S400000, .i32⟩
  | .hbm, ⟨18, _⟩ => ⟨S400000x1, .i32⟩
  | .hbm, ⟨19, _⟩ => ⟨S400000x512, .f32⟩
  | .hbm, ⟨20, _⟩ => ⟨S_, .f32⟩
  | .hbm, ⟨21, _⟩ => ⟨S50000x512, .f32⟩
  | .hbm, ⟨22, _⟩ => ⟨S400000x1, .i32⟩
  | .hbm, ⟨23, _⟩ => ⟨S50000x512, .f32⟩
  | .hbm, ⟨24, _⟩ => ⟨S50000x512, .f32⟩
  | .hbm, ⟨25, _⟩ => ⟨S50000x512, .f32⟩
  | .hbm, ⟨26, _⟩ => ⟨S1x512, .f32⟩
  | .hbm, ⟨27, _⟩ => ⟨S50000x512, .f32⟩
  | .hbm, ⟨28, _⟩ => ⟨S50000x512, .f32⟩
  | .hbm, ⟨29, _⟩ => ⟨S_, .f32⟩
  | .hbm, ⟨30, _⟩ => ⟨S50000x512, .f32⟩
  | .hbm, ⟨31, _⟩ => ⟨S50000x512, .f32⟩
  | .hbm, ⟨32, _⟩ => ⟨S_, .i32⟩
  | .hbm, ⟨33, _⟩ => ⟨S400000, .i32⟩
  | .hbm, ⟨34, _⟩ => ⟨S400000, .i1⟩
  | .hbm, ⟨35, _⟩ => ⟨S_, .i32⟩
  | .hbm, ⟨36, _⟩ => ⟨S400000, .i32⟩
  | .hbm, ⟨37, _⟩ => ⟨S400000, .i32⟩
  | .hbm, ⟨38, _⟩ => ⟨S400000, .i32⟩
  | .hbm, ⟨39, _⟩ => ⟨S400000x1, .i32⟩
  | .hbm, ⟨40, _⟩ => ⟨S400000x512, .f32⟩
  | .hbm, ⟨41, _⟩ => ⟨S_, .f32⟩
  | .hbm, ⟨42, _⟩ => ⟨S50000x512, .f32⟩
  | .hbm, ⟨43, _⟩ => ⟨S400000x1, .i32⟩
  | .hbm, ⟨44, _⟩ => ⟨S50000x512, .f32⟩
  | .hbm, ⟨45, _⟩ => ⟨S50000x512, .f32⟩
  | .hbm, ⟨46, _⟩ => ⟨S50000x512, .f32⟩
  | .hbm, ⟨47, _⟩ => ⟨S1x512, .f32⟩
  | .hbm, ⟨48, _⟩ => ⟨S50000x512, .f32⟩
  | .hbm, ⟨49, _⟩ => ⟨S50000x512, .f32⟩
  | .hbm, ⟨50, _⟩ => ⟨S_, .f32⟩
  | .hbm, ⟨51, _⟩ => ⟨S50000x512, .f32⟩
  | .hbm, ⟨52, _⟩ => ⟨S50000x512, .f32⟩
  | .hbm, ⟨53, _⟩ => ⟨S_, .i32⟩
  | .hbm, ⟨54, _⟩ => ⟨S400000, .i32⟩
  | .hbm, ⟨55, _⟩ => ⟨S400000, .i1⟩
  | .hbm, ⟨56, _⟩ => ⟨S_, .i32⟩
  | .hbm, ⟨57, _⟩ => ⟨S400000, .i32⟩
  | .hbm, ⟨58, _⟩ => ⟨S400000, .i32⟩
  | .hbm, ⟨59, _⟩ => ⟨S400000, .i32⟩
  | .hbm, ⟨60, _⟩ => ⟨S400000x1, .i32⟩
  | .hbm, ⟨61, _⟩ => ⟨S400000x512, .f32⟩
  | .hbm, ⟨62, _⟩ => ⟨S_, .f32⟩
  | .hbm, ⟨63, _⟩ => ⟨S50000x512, .f32⟩
  | .hbm, ⟨64, _⟩ => ⟨S400000x1, .i32⟩
  | .hbm, ⟨65, _⟩ => ⟨S50000x512, .f32⟩
  | .hbm, ⟨66, _⟩ => ⟨S50000x512, .f32⟩
  | .hbm, ⟨67, _⟩ => ⟨S50000x512, .f32⟩
  | .hbm, ⟨68, _⟩ => ⟨S1x512, .f32⟩
  | .hbm, ⟨69, _⟩ => ⟨S50000x512, .f32⟩
  | .hbm, ⟨70, _⟩ => ⟨S50000x512, .f32⟩
  | .hbm, ⟨71, _⟩ => ⟨S_, .f32⟩
  | .hbm, ⟨72, _⟩ => ⟨S50000x512, .f32⟩
  | .hbm, ⟨73, _⟩ => ⟨S50000x512, .f32⟩
  | .hbm, ⟨74, _⟩ => ⟨S50000x40, .f32⟩
  | .hbm, ⟨75, _⟩ => ⟨S1x40, .f32⟩
  | .hbm, ⟨76, _⟩ => ⟨S50000x40, .f32⟩
  | .hbm, ⟨77, _⟩ => ⟨S50000x40, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_cst : Ref sig .tc := ⟨.hbm, 29, rfl⟩
abbrev main_call0_v0 : Ref sig .tc := ⟨.hbm, 30, rfl⟩
abbrev main_v15 : Ref sig .tc := ⟨.hbm, 31, rfl⟩
abbrev main_c_1 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_cst : Ref sig .tc := ⟨.hbm, 50, rfl⟩
abbrev main_call1_v0 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call2_cst : Ref sig .tc := ⟨.hbm, 71, rfl⟩
abbrev main_call2_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x512_S400000x1_S400000x512_1_0_n_n_0_1_1512_wf : GatherDims.WF S50000x512 S400000x1 S400000x512 [1] [0] [] [0] [] 1 ![1, 512]
  scatter_S50000x512_S400000x1_S400000x512_1_0_0_1_wf : ScatterDims.WF S50000x512 S400000x1 S400000x512 [1] [0] [0] 1
  dot_S50000x512_S512x512_S50000x512_1_0_0_1_n_n_wf : DotDims.WF S50000x512 S512x512 S50000x512 [1] [0] [0] [1] [] []
  dot_S50000x512_S512x40_S50000x40_1_0_0_1_n_n_wf : DotDims.WF S50000x512 S512x40 S50000x40 [1] [0] [0] [1] [] []

variable [Facts₀]

def gather_S50000x512_S400000x1_S400000x512_1_0_n_n_0_1_1512 : GatherDims S50000x512 S400000x1 S400000x512 where
  offsetDims := [1]
  collapsedSliceDims := [0]
  operandBatchingDims := []
  startIndicesBatchingDims := []
  startIndexMap := [0]
  indexVectorDim := 1
  sliceSizes := ![1, 512]
  wf := gather_S50000x512_S400000x1_S400000x512_1_0_n_n_0_1_1512_wf
def scatter_S50000x512_S400000x1_S400000x512_1_0_0_1 : ScatterDims S50000x512 S400000x1 S400000x512 where
  updateWindowDims := [1]
  insertedWindowDims := [0]
  scatterDimsToOperandDims := [0]
  indexVectorDim := 1
  wf := scatter_S50000x512_S400000x1_S400000x512_1_0_0_1_wf
def dot_S50000x512_S512x512_S50000x512_1_0_0_1_n_n : DotDims S50000x512 S512x512 S50000x512 where
  lhsContracting := [1]
  rhsContracting := [0]
  lhsNonContracting := [0]
  rhsNonContracting := [1]
  lhsBatch := []
  rhsBatch := []
  wf := dot_S50000x512_S512x512_S50000x512_1_0_0_1_n_n_wf
def dot_S50000x512_S512x40_S50000x40_1_0_0_1_n_n : DotDims S50000x512 S512x40 S50000x40 where
  lhsContracting := [1]
  rhsContracting := [0]
  lhsNonContracting := [0]
  rhsNonContracting := [1]
  lhsBatch := []
  rhsBatch := []
  wf := dot_S50000x512_S512x40_S50000x40_1_0_0_1_n_n_wf

class Facts : Prop extends Facts₀ where

variable [Facts]
-- ==== Proof.KernelRun.lean ====
/-
  The idealized program's run with its result named.

  The program is thirteen segments: stretches of host operations and four kernel regions. After the last segment every
  buffer that is not a kernel's scratch holds the last boundary's contents: the launch memory folded through the host
  stretches and through what each region's write-backs leave. So the result buffer ends at that fold read at the
  result, and each argument, which no segment writes, at its launch contents.
-/
import proofs.«182243_j11751030522384_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends, nothing faulting, with the result buffer at the last boundary's contents and
    the eleven arguments as launched. -/
theorem run_result : θ_run defs (onTc (τ := τ) (main (F := F))) ⟨m, fun _ => 0, ρ⟩ (fun r => ∀ c : Dev nD,
      r.2.mem ((c.tc : Thread nD τ).loc main_v40) = W13 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v40 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.Whole

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«182243_j11751030522384_2_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.LibDense.lean ====
/-
  The dense layers of the network as whole-array functions on the extended reals, and the host's spelling of each.

  A matrix with `M` rows and `N` columns is a function of its two coordinates. The layers are: a product plus a bias
  row (`lin`, from the bias-and-product module), the same with the contraction split over two pairs of operands
  (`lin2`), the plain product (`mm`), adding a row to every row of a matrix (`addRow`), and the positive part
  (`relu`). The host writes a layer as a `dot_general`, the bias broadcast in two steps to the matrix's shape,
  an addition, and a maximum with a broadcast zero; entry by entry these are the functions above.

  Two identities join the kernel's arrangement to the host's. A product whose left operand is two blocks set side by
  side, against a weight matrix, is the sum of the two blocks' products against the matching row ranges of the weight:
  the sum over the contraction index splits at the seam, which needs only that addition of extended reals is
  associative and commutative. And a product plus a row of zeros is the product.
-/
import Idealize.ShloMosaic.Lib.ValueIdx
import Idealize.ShloMosaic.Lib.Pipeline.Value
import Idealize.ShloMosaic.PureOps.Ideal.Laws
import proofs.«182243_j11751030522384_2_alg».proof.Proof.LibBiasDot

noncomputable section

open scoped BigOperators

namespace Cert.Lib.Dense

open Idealize.ShloMosaic Idealize.ShloMosaic.ValueIdx Cert.Lib.BiasDot

variable {M K K' N : Nat}

/-- The positive part, entry by entry. -/
def relu {s : Shape} (f : s.Idx → EReal) : s.Idx → EReal := fun i => max (f i) 0

/-- A row added to every row of a matrix. -/
def addRow (X : (⟨2, ![M, N]⟩ : Shape).Idx → EReal) (B : (⟨1, ![N]⟩ : Shape).Idx → EReal) :
    (⟨2, ![M, N]⟩ : Shape).Idx → EReal := fun i => X i + B (ix1 (i 1))

/-- The plain product: entry `(p, q)` is `∑ k, A (p, k) · W (k, q)`. -/
def mm (A : (⟨2, ![M, K]⟩ : Shape).Idx → EReal) (W : (⟨2, ![K, N]⟩ : Shape).Idx → EReal) :
    (⟨2, ![M, N]⟩ : Shape).Idx → EReal := fun i => ∑ k : Fin K, A (ix2 (i 0) k) * W (ix2 k (i 1))

/-- Two products added, plus a bias row: entry `(p, q)` is `∑ k, A (p, k) · Wa (k, q) + ∑ k, C (p, k) · Wb (k, q) + b q`. -/
def lin2 (A : (⟨2, ![M, K]⟩ : Shape).Idx → EReal) (Wa : (⟨2, ![K, N]⟩ : Shape).Idx → EReal)
    (C : (⟨2, ![M, K']⟩ : Shape).Idx → EReal) (Wb : (⟨2, ![K', N]⟩ : Shape).Idx → EReal)
    (B : (⟨1, ![N]⟩ : Shape).Idx → EReal) : (⟨2, ![M, N]⟩ : Shape).Idx → EReal :=
  fun i => ((∑ k : Fin K, A (ix2 (i 0) k) * Wa (ix2 k (i 1))) + (∑ k : Fin K', C (ix2 (i 0) k) * Wb (ix2 k (i 1))))
    + B (ix1 (i 1))

/-! ## The host's spelling, read at an entry -/

/-- A vector of length `N` broadcast to a `1 × N` row and then down `M` rows reads, at `(p, q)`, the vector at `q`. -/
theorem hostRow_apply {α : Type} (B : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 B) (ix2 p q) = B (ix1 q) := by
  refine (broadcastInDim_apply ![0, 1] h2 _ (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine broadcastInDim_apply ![1] h1 B (ix2 (0 : Fin 1) q) (ix1 q) (fun a => ?_)
    match a with
    | ⟨0, _⟩ =>
      show q.val = if N = 1 then 0 else q.val
      split
      · have := q.isLt; omega
      · rfl

/-- The zero scalar broadcast to any shape is zero everywhere. -/
theorem hostZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 := by
  refine (broadcastInDim_apply (s := ⟨0, ![]⟩) dims h _ j (fun a => a.elim0) (fun a => a.elim0)).trans ?_
  rw [constant_apply, Ideal.ofBits_zero_f32]

/-- The host's linear layer with the positive part: product, bias broadcast in two steps, sum, maximum with zero. -/
theorem host_lin_relu (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none X W)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin X W B) := by
  subst hd
  funext i
  obtain ⟨p, q, rfl⟩ : ∃ (p : Fin M) (q : Fin N), i = ix2 p q := ⟨i 0, i 1, eq_ix2 i⟩
  rw [maximumf_apply, addf_apply, hostZero_apply, hostRow_apply]
  exact congrArg (fun z => max (z + B (ix1 q)) 0) (Cert.Lib.PlainDot.dotGeneral_apply none _ X W p q)

/-- The host's bias-and-positive-part layer. -/
theorem host_addRow_relu (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf X (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (addRow X B) := by
  funext i
  obtain ⟨p, q, rfl⟩ : ∃ (p : Fin M) (q : Fin N), i = ix2 p q := ⟨i 0, i 1, eq_ix2 i⟩
  rw [maximumf_apply, addf_apply, hostZero_apply, hostRow_apply]
  rfl

/-- The host's bias layer. -/
theorem host_addRow (X : FVec Ideal ⟨2, ![M, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 B)) = addRow X B := by
  funext i
  obtain ⟨p, q, rfl⟩ : ∃ (p : Fin M) (q : Fin N), i = ix2 p q := ⟨i 0, i 1, eq_ix2 i⟩
  rw [addf_apply, hostRow_apply]
  rfl

/-- The host's plain product. -/
theorem host_mm (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) :
    Host.dotGeneral d none X W = mm X W := by
  subst hd
  funext i
  obtain ⟨p, q, rfl⟩ : ∃ (p : Fin M) (q : Fin N), i = ix2 p q := ⟨i 0, i 1, eq_ix2 i⟩
  exact Cert.Lib.PlainDot.dotGeneral_apply none _ X W p q

/-! ## A left operand of two blocks side by side -/

section Concat

variable (A : (⟨2, ![M, K]⟩ : Shape).Idx → EReal) (C : (⟨2, ![M, K']⟩ : Shape).Idx → EReal)
  (Wc : (⟨2, ![K + K', N]⟩ : Shape).Idx → EReal)
  (hcat : Shape.Concatenates [(⟨2, ![M, K]⟩ : Shape), ⟨2, ![M, K']⟩] ⟨2, ![M, K + K']⟩ 1)
  (hs1 : (⟨2, ![K + K', N]⟩ : Shape).Slices ![0, 0] ⟨2, ![K, N]⟩)
  (hs2 : (⟨2, ![K + K', N]⟩ : Shape).Slices ![K, 0] ⟨2, ![K', N]⟩)

/-- Left of the seam the two blocks set side by side read the first block. -/
theorem concat_left (p : Fin M) (k : Fin K) :
    concatenate ⟨2, ![M, K + K']⟩ 1 [⟨⟨2, ![M, K]⟩, A⟩, ⟨⟨2, ![M, K']⟩, C⟩] hcat (ix2 p (Fin.castAdd K' k)) = A (ix2 p k) :=
  concatenate_pair_apply_left 1 A C hcat _ rfl (ix2 p k) (fun b => by
    match b with
    | ⟨0, _⟩ => rfl
    | ⟨1, _⟩ => rfl)

/-- Right of the seam they read the second block, the column counted from the seam. -/
theorem concat_right (p : Fin M) (k : Fin K') :
    concatenate ⟨2, ![M, K + K']⟩ 1 [⟨⟨2, ![M, K]⟩, A⟩, ⟨⟨2, ![M, K']⟩, C⟩] hcat (ix2 p (Fin.natAdd K k)) = C (ix2 p k) :=
  concatenate_pair_apply_right 1 A C hcat _ rfl rfl (ix2 p k) (fun b hb => by
    match b, hb with
    | ⟨0, _⟩, _ => rfl
    | ⟨1, _⟩, h => exact absurd rfl h) (by show k.val + K = K + k.val; omega)

/-- The first `K` rows of the weight. -/
theorem slice_top (k : Fin K) (q : Fin N) :
    extractStridedSlice ⟨2, ![K, N]⟩ ![0, 0] Wc hs1 (ix2 k q) = Wc (ix2 (Fin.castAdd K' k) q) :=
  extractStridedSlice_apply ![0, 0] Wc hs1 (ix2 k q) (ix2 (Fin.castAdd K' k) q) (fun a => by
    match a with
    | ⟨0, _⟩ => show k.val = 0 + k.val; omega
    | ⟨1, _⟩ => show q.val = 0 + q.val; omega)

/-- The last `K'` rows of the weight. -/
theorem slice_bot (k : Fin K') (q : Fin N) :
    extractStridedSlice ⟨2, ![K', N]⟩ ![K, 0] Wc hs2 (ix2 k q) = Wc (ix2 (Fin.natAdd K k) q) :=
  extractStridedSlice_apply ![K, 0] Wc hs2 (ix2 k q) (ix2 (Fin.natAdd K k) q) (fun a => by
    match a with
    | ⟨0, _⟩ => show K + k.val = K + k.val; rfl
    | ⟨1, _⟩ => show q.val = 0 + q.val; omega)

/-- The sum over the contraction index of the side-by-side operand against the weight splits at the seam into the two
    blocks' sums against the two row ranges of the weight. -/
theorem sum_concat (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * extractStridedSlice ⟨2, ![K, N]⟩ ![0, 0] Wc hs1 (ix2 k q))
        + (∑ k : Fin K', C (ix2 p k) * extractStridedSlice ⟨2, ![K', N]⟩ ![K, 0] Wc hs2 (ix2 k q)) := by
  rw [Fin.sum_univ_add]
  refine congrArg₂ (· + ·) (Finset.sum_congr rfl fun k _ => ?_) (Finset.sum_congr rfl fun k _ => ?_)
  · rw [concat_left, slice_top]
  · rw [concat_right, slice_bot]

end Concat

/-- The host's second layer: the side-by-side operand against the whole weight, bias, positive part — is the two-product
    layer of the two blocks against the two row ranges of the weight. -/
theorem host_concat_lin2_relu {Kt : Nat} (hK : Kt = K + K')
    (d : DotDims ⟨2, ![M, Kt]⟩ ⟨2, ![Kt, N]⟩ ⟨2, ![M, N]⟩) (hd : d = hK ▸ DotDims.plain M (K + K') N)
    (A : FVec Ideal ⟨2, ![M, K]⟩ .f32) (C : FVec Ideal ⟨2, ![M, K']⟩ .f32) (Wc : FVec Ideal ⟨2, ![Kt, N]⟩ .f32)
    (B : FVec Ideal ⟨1, ![N]⟩ .f32)
    (hcat : Shape.Concatenates [(⟨2, ![M, K]⟩ : Shape), ⟨2, ![M, K']⟩] ⟨2, ![M, Kt]⟩ 1)
    (hs1 : (⟨2, ![Kt, N]⟩ : Shape).Slices ![0, 0] ⟨2, ![K, N]⟩)
    (hs2 : (⟨2, ![Kt, N]⟩ : Shape).Slices ![K, 0] ⟨2, ![K', N]⟩)
    (h1 : (⟨1, ![N]⟩ : Shape).BroadcastsInDim ⟨2, ![1, N]⟩ ![1])
    (h2 : (⟨2, ![1, N]⟩ : Shape).BroadcastsInDim ⟨2, ![M, N]⟩ ![0, 1])
    (dims : Fin 0 → Fin 2) (h0 : (⟨0, ![]⟩ : Shape).BroadcastsInDim ⟨2, ![M, N]⟩ dims) :
    maximumf (addf (Host.dotGeneral d none
          (concatenate ⟨2, ![M, Kt]⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B)))
      (broadcastInDim ⟨2, ![M, N]⟩ dims h0 (constant ⟨0, ![]⟩ .f32 0x00000000#32))
    = relu (lin2 A (extractStridedSlice ⟨2, ![K, N]⟩ ![0, 0] Wc hs1) C (extractStridedSlice ⟨2, ![K', N]⟩ ![K, 0] Wc hs2) B) := by
  subst hK
  subst hd
  funext i
  obtain ⟨p, q, rfl⟩ : ∃ (p : Fin M) (q : Fin N), i = ix2 p q := ⟨i 0, i 1, eq_ix2 i⟩
  rw [maximumf_apply, addf_apply, hostZero_apply, hostRow_apply]
  refine congrArg (fun z => max (z + B (ix1 q)) 0) ?_
  exact (Cert.Lib.PlainDot.dotGeneral_apply none _ _ Wc p q).trans (sum_concat A C Wc hcat hs1 hs2 p q)

/-! ## A zero bias row -/

/-- A product plus a row of zeros is the product. -/
theorem lin_zero (X : (⟨2, ![M, K]⟩ : Shape).Idx → EReal) (W : (⟨2, ![K, N]⟩ : Shape).Idx → EReal)
    (Z : (⟨1, ![N]⟩ : Shape).Idx → EReal) (hZ : ∀ j, Z j = 0) : lin X W Z = mm X W := by
  funext i
  show (∑ k : Fin K, X (ix2 (i 0) k) * W (ix2 k (i 1))) + Z (ix1 (i 1)) = _
  rw [hZ, add_zero]
  rfl

end Cert.Lib.Dense

end
-- ==== Proof.LibRowLayers.lean ====
/-
  The two dense layers a vector unit computes on a block of rows, as whole-array functions on the extended reals.

  A block of `M` rows with `K` features, a `K × N` weight and a `1 × N` bias row give `relu (x · W + b)`: entry
  `(p, q)` is the larger of `0` and `∑ k, x (p, k) · W (k, q) + b (0, q)`. The narrowing of the operands to a shorter float
  format before the product is the identity on extended reals, the product accumulates into zero, and the bias row is
  repeated down the rows. A second product and bias on top of that, without the positive part, gives the output layer.

  An entry of either layer depends on one row of the block only, so a block of rows of a taller array computes the
  same entries as the layer of the whole array at those rows.
-/
import Idealize.ShloMosaic.Lib.ValueIdx
import Idealize.ShloMosaic.Lib.Pipeline.Value
import Idealize.ShloMosaic.PureOps.Ideal.Laws
import proofs.«182243_j11751030522384_2_alg».proof.Proof.LibDense

noncomputable section

open scoped BigOperators

namespace Cert.Lib.RowLayers

open Idealize.ShloMosaic Idealize.ShloMosaic.ValueIdx Cert.Lib.BiasDot Cert.Lib.Dense

variable {m M K N N' : Nat}

/-- A `1 × N` row read as a vector of length `N`. -/
def rowVec (R : (⟨2, ![1, N]⟩ : Shape).Idx → EReal) : (⟨1, ![N]⟩ : Shape).Idx → EReal :=
  fun j => R (ix2 (0 : Fin 1) (j 0))

/-- A vector of length `N` reshaped to a `1 × N` row and read back as a vector is the vector. -/
theorem rowVec_reshape (b : (⟨1, ![N]⟩ : Shape).Idx → EReal) (hc : (⟨1, ![N]⟩ : Shape).ShapeCasts ⟨2, ![1, N]⟩) :
    rowVec (shapeCast ⟨2, ![1, N]⟩ b hc) = b := by
  funext j
  refine (shapeCast_addUnit_apply ![N] b hc (ix2 (0 : Fin 1) (j 0))).trans (congrArg b ?_)
  funext a
  match a with
  | ⟨0, _⟩ => rfl

/-- A `1 × N` row repeated down `M` rows reads, at `(p, q)`, the row at `q`. -/
theorem rowRepeat_apply {α : Type} (R : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ R hc) hb (ix2 p q) = R (ix2 (0 : Fin 1) q) := by
  rw [shapeCast_self]
  refine broadcastTo_apply _ hb (ix2 p q) (ix2 (0 : Fin 1) q) (fun a => ?_)
  match a with
  | ⟨0, _⟩ => exact (if_pos rfl).symm
  | ⟨1, _⟩ =>
    show q.val = if N = 1 then 0 else q.val
    split
    · have := q.isLt; omega
    · rfl

/-- The product into zero plus the repeated bias row is the linear layer of the block, the weight and the row. -/
theorem linLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr)
      = lin x0 x1 (rowVec x2) := by
  subst hd
  funext i
  obtain ⟨p, q, rfl⟩ : ∃ (p : Fin M) (q : Fin N), i = ix2 p q := ⟨i 0, i 1, eq_ix2 i⟩
  rw [addf_apply, rowRepeat_apply, Cert.Lib.PlainDot.matmul_zero_apply]
  rfl

/-- The same followed by the maximum with a splat zero is the positive part of the linear layer. -/
theorem reluLayer_eq (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![K, N]⟩ .f32) (x2 : FVec Ideal ⟨2, ![1, N]⟩ .f32)
    (hb0 hb1 : FTy.bf16.bits < FTy.f32.bits)
    (h2 : (⟨2, ![1, N]⟩ : Shape).ShapeCasts ⟨2, ![1, N]⟩) (hbr : (⟨2, ![1, N]⟩ : Shape).Broadcasts ⟨2, ![M, N]⟩) :
    maximumf (addf (FloatOps.matmul d none (truncf .bf16 x0 hb0) (truncf .bf16 x1 hb1) (constant ⟨2, ![M, N]⟩ .f32 0x00000000#32))
        (broadcastTo ⟨2, ![M, N]⟩ (shapeCast ⟨2, ![1, N]⟩ x2 h2) hbr))
      (broadcast ⟨2, ![M, N]⟩ (Scalar.ofBits (F := Ideal) .f32 0x00000000#32))
      = relu (lin x0 x1 (rowVec x2)) := by
  rw [linLayer_eq d hd x0 x1 x2 hb0 hb1 h2 hbr]
  funext i
  rw [maximumf_apply, broadcast_apply]
  show max _ (Ideal.ofBits .f32 0x00000000#32) = _
  rw [Ideal.ofBits_zero_f32]
  rfl

/-- The first layer on a block of rows is the first layer of the whole array at those rows: entry `j` of the block's
    layer is entry `i` of the array's when the block's row `j 0` is the array's row `i 0` and the columns agree. -/
theorem layer_block (x0 : (⟨2, ![m, K]⟩ : Shape).Idx → EReal) (x1 : (⟨2, ![K, N]⟩ : Shape).Idx → EReal)
    (x2 : (⟨2, ![1, N]⟩ : Shape).Idx → EReal)
    (A : (⟨2, ![M, K]⟩ : Shape).Idx → EReal) (W : (⟨2, ![K, N]⟩ : Shape).Idx → EReal) (R : (⟨2, ![1, N]⟩ : Shape).Idx → EReal)
    (j : (⟨2, ![m, N]⟩ : Shape).Idx) (i : (⟨2, ![M, N]⟩ : Shape).Idx)
    (h0 : ∀ k : Fin K, x0 (ix2 (j 0) k) = A (ix2 (i 0) k)) (h1 : ∀ k : Fin K, x1 (ix2 k (j 1)) = W (ix2 k (i 1)))
    (h2 : x2 (ix2 (0 : Fin 1) (j 1)) = R (ix2 (0 : Fin 1) (i 1))) :
    relu (lin x0 x1 (rowVec x2)) j = relu (lin A W (rowVec R)) i := by
  show max ((∑ k : Fin K, x0 (ix2 (j 0) k) * x1 (ix2 k (j 1))) + x2 (ix2 (0 : Fin 1) (j 1))) 0
    = max ((∑ k : Fin K, A (ix2 (i 0) k) * W (ix2 k (i 1))) + R (ix2 (0 : Fin 1) (i 1))) 0
  rw [h2]
  exact congrArg (fun z => max (z + R (ix2 (0 : Fin 1) (i 1))) 0) (Finset.sum_congr rfl fun k _ => by rw [h0 k, h1 k])

/-- The two layers on a block of rows are the two layers of the whole array at those rows. -/
theorem head_block (x0 : (⟨2, ![m, K]⟩ : Shape).Idx → EReal) (x1 : (⟨2, ![K, N]⟩ : Shape).Idx → EReal)
    (x2 : (⟨2, ![1, N]⟩ : Shape).Idx → EReal) (x3 : (⟨2, ![N, N']⟩ : Shape).Idx → EReal) (x4 : (⟨2, ![1, N']⟩ : Shape).Idx → EReal)
    (A : (⟨2, ![M, K]⟩ : Shape).Idx → EReal) (W : (⟨2, ![K, N]⟩ : Shape).Idx → EReal) (R : (⟨2, ![1, N]⟩ : Shape).Idx → EReal)
    (W' : (⟨2, ![N, N']⟩ : Shape).Idx → EReal) (R' : (⟨2, ![1, N']⟩ : Shape).Idx → EReal)
    (j : (⟨2, ![m, N']⟩ : Shape).Idx) (i : (⟨2, ![M, N']⟩ : Shape).Idx)
    (h0 : ∀ k : Fin K, x0 (ix2 (j 0) k) = A (ix2 (i 0) k)) (h1 : x1 = W) (h2 : x2 = R)
    (h3 : ∀ k : Fin N, x3 (ix2 k (j 1)) = W' (ix2 k (i 1)))
    (h4 : x4 (ix2 (0 : Fin 1) (j 1)) = R' (ix2 (0 : Fin 1) (i 1))) :
    lin (relu (lin x0 x1 (rowVec x2))) x3 (rowVec x4) j = lin (relu (lin A W (rowVec R))) W' (rowVec R') i := by
  subst h1
  subst h2
  show (∑ k : Fin N, relu (lin x0 x1 (rowVec x2)) (ix2 (j 0) k) * x3 (ix2 k (j 1))) + x4 (ix2 (0 : Fin 1) (j 1))
    = (∑ k : Fin N, relu (lin A x1 (rowVec x2)) (ix2 (i 0) k) * W' (ix2 k (i 1))) + R' (ix2 (0 : Fin 1) (i 1))
  rw [h4]
  refine congrArg (fun z => z + R' (ix2 (0 : Fin 1) (i 1))) (Finset.sum_congr rfl fun k _ => ?_)
  rw [h3 k]
  exact congrArg (fun z => z * W' (ix2 k (i 1)))
    (layer_block x0 x1 x2 A x1 x2 (ix2 (j 0) k) (ix2 (i 0) k) h0 (fun _ => rfl) rfl)

end Cert.Lib.RowLayers

end
-- ==== Proof.Region0.lean ====
/-
  The first graph layer's kernel region, read whole.

  The region's grid has 25 points; point t works on rows 2000·t … 2000·t + 1999 of the node table. Its body adds the
  block of the table h and the block of the aggregated neighbour sums a, multiplies by the whole weight W into a zero
  accumulator, adds the bias row b to every row and takes the positive part. An entry of the result depends on one
  row of h + a only, so the block point t writes back is rows 2000·t … of ONE function of the whole arrays,
      layer h a W b (n, f) = max (∑ k, (h (n, k) + a (n, k)) · W (k, f) + b (0, f)) 0 ,
  and since the 25 blocks tile the 50000 rows, the output array ends holding that function everywhere.
  Narrowing the operands to a shorter float format before the product is the identity on extended reals.
-/
import proofs.«182243_j11751030522384_2_alg».proof.Proof.Gen.KernelIdeal.Frame
import proofs.«182243_j11751030522384_2_alg».proof.Proof.LibRowLayers
import Idealize.ShloMosaic.Lib.Pipeline.Value
import Idealize.ShloMosaic.Lib.ValueIdx

set_option maxRecDepth 16384

noncomputable section

namespace Cert.KernelIdeal.Layer0

open Idealize.ShloMosaic Idealize.ShloMosaic.TcCoe Idealize.ShloMosaic.ValueIdx Idealize.SL.Sem
open Idealize.ShloMosaic.Pipeline (Dat)
open Cert.KernelIdeal Cert.KernelIdeal.Gen
open Cert.Lib.BiasDot Cert.Lib.Dense Cert.Lib.RowLayers

variable (V : (c : Dev nD) → (b : Ref sig .tc) → Buf (Elt Ideal) ((c : Thread nD τ).loc b))

theorem hz : (![0, 0] : Fin 2 → Nat) = fun _ => 0 := funext fun a => by fin_cases a <;> rfl

/-- One graph layer as a function of whole arrays: the positive part of (h + a) · W plus the bias row. -/
def layer {M : Nat} (h a : FVec Ideal ⟨2, ![M, 512]⟩ .f32) (W : FVec Ideal S512x512 .f32) (b : FVec Ideal S1x512 .f32) :
    FVec Ideal ⟨2, ![M, 512]⟩ .f32 :=
  relu (lin (addf h a) W (rowVec b))

/-- The body's stored value is the layer of its four loaded blocks. -/
theorem pay_eq (x0 x1 : Vec Ideal S2000x512 .f32) (x2 : Vec Ideal S512x512 .f32) (x3 : Vec Ideal S1x512 .f32) :
    k0_pay1 (F := Ideal) x0 x1 x2 x3 = layer x0 x1 x2 x3 := by
  unfold k0_pay1 layer
  dsimp only
  rw [shapeCast_self]
  exact reluLayer_eq _ rfl (addf x0 x1) x2 x3 _ _ _ _

/-- The printed index maps over the grid: windows 0, 1 and 4 move one block of rows per point, windows 2 and 3 stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Window 0's block at point t is rows 2000·t … of the table. -/
theorem blk0_apply (c : Dev nD) (t : Fin cfg0.N) (y : S2000x512.Idx) (i : S50000x512.Idx)
    (h0 : (i 0).val = 2000 * t.val + (y 0).val) (h1 : (i 1).val = (y 1).val) :
    (iblk0 V c 0 t : Vec Ideal S2000x512 .f32) y = (V c main_arg0 : S50000x512.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 512 + 1 * (y 1).val = (i 1).val; rw [e1, h1]; omega

/-- Window 1's block at point t is the same rows of the aggregated sums. -/
theorem blk1_apply (c : Dev nD) (t : Fin cfg0.N) (y : S2000x512.Idx) (i : S50000x512.Idx)
    (h0 : (i 0).val = 2000 * t.val + (y 0).val) (h1 : (i 1).val = (y 1).val) :
    (iblk0 V c 1 t : Vec Ideal S2000x512 .f32) y = (V c main_v9 : S50000x512.Idx → EReal) i := by
  obtain ⟨-, -, e0, e1, -⟩ := idx_facts t
  unfold iblk0
  rw [View.read_apply]
  show V c main_v9 _ = V c main_v9 _
  congr 1
  funext a
  apply Fin.ext
  match a with
  | ⟨0, _⟩ => show win0_1.index t (0 : Fin 2) * 2000 + 1 * (y 0).val = (i 0).val; rw [e0, h0]; omega
  | ⟨1, _⟩ => show win0_1.index t (1 : Fin 2) * 512 + 1 * (y 1).val = (i 1).val; rw [e1, h1]; omega

/-- Window 2's block is the whole weight at every point. -/
theorem blk2_eq (c : Dev nD) (t : Fin cfg0.N) :
    (iblk0 V c 2 t : Vec Ideal S512x512 .f32) = (V c main_arg3 : S512x512.Idx → EReal) := by
  obtain ⟨-, -, -, -, e0, e1, -⟩ := idx_facts t
  funext y
  unfold iblk0
  rw [View.read_apply]
  show V c main_arg3 _ = V c main_arg3 _
  congr 1
  funext a
  apply Fin.ext
  match a with
  | ⟨0, _⟩ => show win0_2.index t (0 : Fin 2) * 512 + 1 * (y 0).val = (y 0).val; rw [e0]; omega
  | ⟨1, _⟩ => show win0_2.index t (1 : Fin 2) * 512 + 1 * (y 1).val = (y 1).val; rw [e1]; omega

/-- Window 3's block is the whole bias row at every point. -/
theorem blk3_eq (c : Dev nD) (t : Fin cfg0.N) :
    (iblk0 V c 3 t : Vec Ideal S1x512 .f32) = (V c main_v10 : S1x512.Idx → EReal) := by
  obtain ⟨-, -, -, -, -, -, e0, e1, -⟩ := idx_facts t
  funext y
  unfold iblk0
  rw [View.read_apply]
  show V c main_v10 _ = V c main_v10 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 512 + 1 * (y 1).val = (y 1).val; rw [e1]; omega

/-- The layer on a block of rows is the layer of the whole arrays at those rows. -/
theorem layer_rows (x0 x1 : Vec Ideal S2000x512 .f32) (h a : FVec Ideal S50000x512 .f32)
    (W : FVec Ideal S512x512 .f32) (b : FVec Ideal S1x512 .f32) (j : S2000x512.Idx) (i : S50000x512.Idx)
    (hx0 : ∀ k : Fin 512, x0 (ix2 (j 0) k) = h (ix2 (i 0) k)) (hx1 : ∀ k : Fin 512, x1 (ix2 (j 0) k) = a (ix2 (i 0) k))
    (hcol : (i 1).val = (j 1).val) :
    layer x0 x1 W b j = layer h a W b i := by
  have e1 : (i 1 : Fin 512) = j 1 := Fin.ext hcol
  unfold layer
  refine layer_block (m := 2000) (M := 50000) (K := 512) (N := 512) (addf x0 x1 : FVec Ideal S2000x512 .f32) W b (addf h a : FVec Ideal S50000x512 .f32) W b j i (fun k => ?_) (fun k => ?_) ?_
  · rw [addf_apply, addf_apply, hx0 k, hx1 k]
  · rw [e1]
  · rw [e1]

/-- What point t writes back is block t of the layer of the arrays as the region finds them. -/
theorem flushed_eq (c : Dev nD) (t : Fin cfg0.N) :
    (dat0 V c).flushed 4 t = ((cfg0.win 4).blk t).view.read (Elt Ideal)
      (layer (M := 50000) (V c main_arg0) (V c main_v9) (V c main_arg3) (V c main_v10)) := by
  show (cfg0.win 4).cut (grid0.coords t) ((dat0 V c).after 4 t) = _
  rw [after0_4]
  unfold out0_4
  rw [View.canon_unit_zero hz]
  simp only [View.ld_unit_zero (S := S2000x512) hz, View.ld_unit_zero (S := S512x512) hz, View.ld_unit_zero (S := S1x512) hz]
  rw [pay_eq, blk2_eq V c t, blk3_eq V c t]
  obtain ⟨-, -, -, -, -, -, -, -, e0, e1⟩ := idx_facts t
  funext j
  show layer (iblk0 V c 0 t : Vec Ideal S2000x512 .f32) (iblk0 V c 1 t : Vec Ideal S2000x512 .f32) (V c main_arg3) (V c main_v10) j
    = layer (M := 50000) (V c main_arg0) (V c main_v9) (V c main_arg3) (V c main_v10) (((cfg0.win 4).blk t).view.emb j)
  have hr : ((((cfg0.win 4).blk t).view.emb j : S50000x512.Idx) 0).val = 2000 * t.val + (j 0).val := by
    show win0_4.index t (0 : Fin 2) * 2000 + 1 * (j 0).val = _; rw [e0]; omega
  have hc : ((((cfg0.win 4).blk t).view.emb j : S50000x512.Idx) 1).val = (j 1).val := by
    show win0_4.index t (1 : Fin 2) * 512 + 1 * (j 1).val = _; rw [e1]; omega
  refine layer_rows _ _ _ _ _ _ j _ (fun k => ?_) (fun k => ?_) hc
  · exact blk0_apply V c t _ _ hr rfl
  · exact blk1_apply V c t _ _ hr rfl

/-- An index of the output array is in point t's block iff its row is among that block's rows. -/
theorem mem_blk (t : Fin cfg0.N) (i : S50000x512.Idx) :
    i ∈ ((cfg0.win 4).blk t).view.set ↔ ∀ a : Fin 2, win0_4.index t a * S2000x512.size a ≤ (i a).val ∧ (i a).val < win0_4.index t a * S2000x512.size a + S2000x512.size a := by
  show i ∈ ((View.whole main_v11).slice (win0_4.rect t)).set ↔ _
  rw [View.set_slice_whole, Rect.mem_set_unit]
  exact Iff.rfl

/-- The 25 blocks of 2000 rows cover the 50000 rows: row n is in the block of point n / 2000. -/
theorem cover (i : S50000x512.Idx) : ∃ t : Fin cfg0.N, (cfg0.win 4).flush t = true ∧ i ∈ ((cfg0.win 4).blk t).view.set := by
  have hN : cfg0.N = 25 := N_0
  have hi0 : (i 0).val < 50000 := (i 0).isLt
  have hi1 : (i 1).val < 512 := (i 1).isLt
  let t : Fin cfg0.N := ⟨(i 0).val / 2000, by rw [hN]; omega⟩
  have ht : t.val = (i 0).val / 2000 := rfl
  obtain ⟨-, -, -, -, -, -, -, -, e0, e1⟩ := idx_facts t
  refine ⟨t, flush0_4 t, ?_⟩
  rw [mem_blk]
  intro a
  match a with
  | ⟨0, _⟩ => show win0_4.index t (0 : Fin 2) * 2000 ≤ (i 0).val ∧ (i 0).val < win0_4.index t (0 : Fin 2) * 2000 + 2000; rw [e0, ht]; omega
  | ⟨1, _⟩ => show win0_4.index t (1 : Fin 2) * 512 ≤ (i 1).val ∧ (i 1).val < win0_4.index t (1 : Fin 2) * 512 + 512; rw [e1]; omega

/-- The output array after the region: the layer of the arrays the region was entered with. -/
theorem final (c : Dev nD) : (dat0 V c).arrAt 4 cfg0.N
    = layer (M := 50000) (V c main_arg0) (V c main_v9) (V c main_arg3) (V c main_v10) :=
  (dat0 V c).arrAt_eq_of_cover 4 _ (fun t _ => flushed_eq V c t) cover

/-- An input array ends as the region found it. -/
theorem kept (c : Dev nD) (w : Fin cfg0.W) (hw : w ≠ 4) : (dat0 V c).arrAt w cfg0.N = V c (Pipeline.arrRef spec0 w) := by
  match w, hw with
  | ⟨0, _⟩, _ => exact ((dat0 V c).arrAt_in 0 rfl _).trans (A_eq0 V c 0)
  | ⟨1, _⟩, _ => exact ((dat0 V c).arrAt_in 1 rfl _).trans (A_eq0 V c 1)
  | ⟨2, _⟩, _ => exact ((dat0 V c).arrAt_in 2 rfl _).trans (A_eq0 V c 2)
  | ⟨3, _⟩, _ => exact ((dat0 V c).arrAt_in 3 rfl _).trans (A_eq0 V c 3)
  | ⟨4, _⟩, h => exact absurd rfl h

end Cert.KernelIdeal.Layer0

end
-- ==== Proof.Region1.lean ====
/-
  The second graph layer's kernel region, read whole.

  The region's grid has 25 points; point t works on rows 2000·t … 2000·t + 1999 of the node table. Its body adds the
  block of the table h and the block of the aggregated neighbour sums a, multiplies by the whole weight W into a zero
  accumulator, adds the bias row b to every row and takes the positive part. An entry of the result depends on one
  row of h + a only, so the block point t writes back is rows 2000·t … of ONE function of the whole arrays,
      layer h a W b (n, f) = max (∑ k, (h (n, k) + a (n, k)) · W (k, f) + b (0, f)) 0 ,
  and since the 25 blocks tile the 50000 rows, the output array ends holding that function everywhere.
  Narrowing the operands to a shorter float format before the product is the identity on extended reals.
-/
import proofs.«182243_j11751030522384_2_alg».proof.Proof.Gen.KernelIdeal.Frame
import proofs.«182243_j11751030522384_2_alg».proof.Proof.LibRowLayers
import proofs.«182243_j11751030522384_2_alg».proof.Proof.Region0
import Idealize.ShloMosaic.Lib.Pipeline.Value
import Idealize.ShloMosaic.Lib.ValueIdx

set_option maxRecDepth 16384

noncomputable section

namespace Cert.KernelIdeal.Layer1

open Idealize.ShloMosaic Idealize.ShloMosaic.TcCoe Idealize.ShloMosaic.ValueIdx Idealize.SL.Sem
open Idealize.ShloMosaic.Pipeline (Dat)
open Cert.KernelIdeal Cert.KernelIdeal.Gen
open Cert.Lib.BiasDot Cert.Lib.Dense Cert.Lib.RowLayers
open Cert.KernelIdeal.Layer0 (layer hz)

variable (V : (c : Dev nD) → (b : Ref sig .tc) → Buf (Elt Ideal) ((c : Thread nD τ).loc b))

/-- The body's stored value is the layer of its four loaded blocks. -/
theorem pay_eq (x0 x1 : Vec Ideal S2000x512 .f32) (x2 : Vec Ideal S512x512 .f32) (x3 : Vec Ideal S1x512 .f32) :
    k1_pay1 (F := Ideal) x0 x1 x2 x3 = layer x0 x1 x2 x3 := by
  unfold k1_pay1 layer
  dsimp only
  rw [shapeCast_self x0, shapeCast_self x1]
  exact reluLayer_eq _ rfl (addf x0 x1) x2 x3 _ _ _ _

/-- The printed index maps over the grid: windows 0, 1 and 4 move one block of rows per point, windows 2 and 3 stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point t is rows 2000·t … of the table. -/
theorem blk0_apply (c : Dev nD) (t : Fin cfg1.N) (y : S2000x512.Idx) (i : S50000x512.Idx)
    (h0 : (i 0).val = 2000 * t.val + (y 0).val) (h1 : (i 1).val = (y 1).val) :
    (iblk1 V c 0 t : Vec Ideal S2000x512 .f32) y = (V c main_v11 : S50000x512.Idx → EReal) i := by
  obtain ⟨e0, e1, -⟩ := idx_facts t
  unfold iblk1
  rw [View.read_apply]
  show V c main_v11 _ = V c main_v11 _
  congr 1
  funext a
  apply Fin.ext
  match a with
  | ⟨0, _⟩ => show win1_0.index t (0 : Fin 2) * 2000 + 1 * (y 0).val = (i 0).val; rw [e0, h0]; omega
  | ⟨1, _⟩ => show win1_0.index t (1 : Fin 2) * 512 + 1 * (y 1).val = (i 1).val; rw [e1, h1]; omega

/-- Window 1's block at point t is the same rows of the aggregated sums. -/
theorem blk1_apply (c : Dev nD) (t : Fin cfg1.N) (y : S2000x512.Idx) (i : S50000x512.Idx)
    (h0 : (i 0).val = 2000 * t.val + (y 0).val) (h1 : (i 1).val = (y 1).val) :
    (iblk1 V c 1 t : Vec Ideal S2000x512 .f32) y = (V c main_v21 : S50000x512.Idx → EReal) i := by
  obtain ⟨-, -, e0, e1, -⟩ := idx_facts t
  unfold iblk1
  rw [View.read_apply]
  show V c main_v21 _ = V c main_v21 _
  congr 1
  funext a
  apply Fin.ext
  match a with
  | ⟨0, _⟩ => show win1_1.index t (0 : Fin 2) * 2000 + 1 * (y 0).val = (i 0).val; rw [e0, h0]; omega
  | ⟨1, _⟩ => show win1_1.index t (1 : Fin 2) * 512 + 1 * (y 1).val = (i 1).val; rw [e1, h1]; omega

/-- Window 2's block is the whole weight at every point. -/
theorem blk2_eq (c : Dev nD) (t : Fin cfg1.N) :
    (iblk1 V c 2 t : Vec Ideal S512x512 .f32) = (V c main_arg5 : S512x512.Idx → EReal) := by
  obtain ⟨-, -, -, -, e0, e1, -⟩ := idx_facts t
  funext y
  unfold iblk1
  rw [View.read_apply]
  show V c main_arg5 _ = V c main_arg5 _
  congr 1
  funext a
  apply Fin.ext
  match a with
  | ⟨0, _⟩ => show win1_2.index t (0 : Fin 2) * 512 + 1 * (y 0).val = (y 0).val; rw [e0]; omega
  | ⟨1, _⟩ => show win1_2.index t (1 : Fin 2) * 512 + 1 * (y 1).val = (y 1).val; rw [e1]; omega

/-- Window 3's block is the whole bias row at every point. -/
theorem blk3_eq (c : Dev nD) (t : Fin cfg1.N) :
    (iblk1 V c 3 t : Vec Ideal S1x512 .f32) = (V c main_v22 : S1x512.Idx → EReal) := by
  obtain ⟨-, -, -, -, -, -, e0, e1, -⟩ := idx_facts t
  funext y
  unfold iblk1
  rw [View.read_apply]
  show V c main_v22 _ = V c main_v22 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 512 + 1 * (y 1).val = (y 1).val; rw [e1]; omega

/-- The layer on a block of rows is the layer of the whole arrays at those rows. -/
theorem layer_rows (x0 x1 : Vec Ideal S2000x512 .f32) (h a : FVec Ideal S50000x512 .f32)
    (W : FVec Ideal S512x512 .f32) (b : FVec Ideal S1x512 .f32) (j : S2000x512.Idx) (i : S50000x512.Idx)
    (hx0 : ∀ k : Fin 512, x0 (ix2 (j 0) k) = h (ix2 (i 0) k)) (hx1 : ∀ k : Fin 512, x1 (ix2 (j 0) k) = a (ix2 (i 0) k))
    (hcol : (i 1).val = (j 1).val) :
    layer x0 x1 W b j = layer h a W b i := by
  have e1 : (i 1 : Fin 512) = j 1 := Fin.ext hcol
  unfold layer
  refine layer_block (m := 2000) (M := 50000) (K := 512) (N := 512) (addf x0 x1 : FVec Ideal S2000x512 .f32) W b (addf h a : FVec Ideal S50000x512 .f32) W b j i (fun k => ?_) (fun k => ?_) ?_
  · rw [addf_apply, addf_apply, hx0 k, hx1 k]
  · rw [e1]
  · rw [e1]

/-- What point t writes back is block t of the layer of the arrays as the region finds them. -/
theorem flushed_eq (c : Dev nD) (t : Fin cfg1.N) :
    (dat1 V c).flushed 4 t = ((cfg1.win 4).blk t).view.read (Elt Ideal)
      (layer (M := 50000) (V c main_v11) (V c main_v21) (V c main_arg5) (V c main_v22)) := by
  show (cfg1.win 4).cut (grid1.coords t) ((dat1 V c).after 4 t) = _
  rw [after1_4]
  unfold out1_4
  rw [View.canon_unit_zero hz]
  simp only [View.ld_unit_zero (S := S2000x512) hz, View.ld_unit_zero (S := S512x512) hz, View.ld_unit_zero (S := S1x512) hz]
  rw [pay_eq, blk2_eq V c t, blk3_eq V c t]
  obtain ⟨-, -, -, -, -, -, -, -, e0, e1⟩ := idx_facts t
  funext j
  show layer (iblk1 V c 0 t : Vec Ideal S2000x512 .f32) (iblk1 V c 1 t : Vec Ideal S2000x512 .f32) (V c main_arg5) (V c main_v22) j
    = layer (M := 50000) (V c main_v11) (V c main_v21) (V c main_arg5) (V c main_v22) (((cfg1.win 4).blk t).view.emb j)
  have hr : ((((cfg1.win 4).blk t).view.emb j : S50000x512.Idx) 0).val = 2000 * t.val + (j 0).val := by
    show win1_4.index t (0 : Fin 2) * 2000 + 1 * (j 0).val = _; rw [e0]; omega
  have hc : ((((cfg1.win 4).blk t).view.emb j : S50000x512.Idx) 1).val = (j 1).val := by
    show win1_4.index t (1 : Fin 2) * 512 + 1 * (j 1).val = _; rw [e1]; omega
  refine layer_rows _ _ _ _ _ _ j _ (fun k => ?_) (fun k => ?_) hc
  · exact blk0_apply V c t _ _ hr rfl
  · exact blk1_apply V c t _ _ hr rfl

/-- An index of the output array is in point t's block iff its row is among that block's rows. -/
theorem mem_blk (t : Fin cfg1.N) (i : S50000x512.Idx) :
    i ∈ ((cfg1.win 4).blk t).view.set ↔ ∀ a : Fin 2, win1_4.index t a * S2000x512.size a ≤ (i a).val ∧ (i a).val < win1_4.index t a * S2000x512.size a + S2000x512.size a := by
  show i ∈ ((View.whole main_v23).slice (win1_4.rect t)).set ↔ _
  rw [View.set_slice_whole, Rect.mem_set_unit]
  exact Iff.rfl

/-- The 25 blocks of 2000 rows cover the 50000 rows: row n is in the block of point n / 2000. -/
theorem cover (i : S50000x512.Idx) : ∃ t : Fin cfg1.N, (cfg1.win 4).flush t = true ∧ i ∈ ((cfg1.win 4).blk t).view.set := by
  have hN : cfg1.N = 25 := N_1
  have hi0 : (i 0).val < 50000 := (i 0).isLt
  have hi1 : (i 1).val < 512 := (i 1).isLt
  let t : Fin cfg1.N := ⟨(i 0).val / 2000, by rw [hN]; omega⟩
  have ht : t.val = (i 0).val / 2000 := rfl
  obtain ⟨-, -, -, -, -, -, -, -, e0, e1⟩ := idx_facts t
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; rw [e0, ht]; omega
  | ⟨1, _⟩ => show win1_4.index t (1 : Fin 2) * 512 ≤ (i 1).val ∧ (i 1).val < win1_4.index t (1 : Fin 2) * 512 + 512; rw [e1]; omega

/-- The output array after the region: the layer of the arrays the region was entered with. -/
theorem final (c : Dev nD) : (dat1 V c).arrAt 4 cfg1.N
    = layer (M := 50000) (V c main_v11) (V c main_v21) (V c main_arg5) (V c main_v22) :=
  (dat1 V c).arrAt_eq_of_cover 4 _ (fun t _ => flushed_eq V c t) cover

/-- An input array ends as the region found it. -/
theorem kept (c : Dev nD) (w : Fin cfg1.W) (hw : w ≠ 4) : (dat1 V c).arrAt w cfg1.N = V c (Pipeline.arrRef spec1 w) := by
  match w, hw with
  | ⟨0, _⟩, _ => exact ((dat1 V c).arrAt_in 0 rfl _).trans (A_eq1 V c 0)
  | ⟨1, _⟩, _ => exact ((dat1 V c).arrAt_in 1 rfl _).trans (A_eq1 V c 1)
  | ⟨2, _⟩, _ => exact ((dat1 V c).arrAt_in 2 rfl _).trans (A_eq1 V c 2)
  | ⟨3, _⟩, _ => exact ((dat1 V c).arrAt_in 3 rfl _).trans (A_eq1 V c 3)
  | ⟨4, _⟩, h => exact absurd rfl h

end Cert.KernelIdeal.Layer1

end
-- ==== Proof.Region2.lean ====
/-
  The third graph layer's kernel region, read whole.

  The region's grid has 25 points; point t works on rows 2000·t … 2000·t + 1999 of the node table. Its body adds the
  block of the table h and the block of the aggregated neighbour sums a, multiplies by the whole weight W into a zero
  accumulator, adds the bias row b to every row and takes the positive part. An entry of the result depends on one
  row of h + a only, so the block point t writes back is rows 2000·t … of ONE function of the whole arrays,
      layer h a W b (n, f) = max (∑ k, (h (n, k) + a (n, k)) · W (k, f) + b (0, f)) 0 ,
  and since the 25 blocks tile the 50000 rows, the output array ends holding that function everywhere.
  Narrowing the operands to a shorter float format before the product is the identity on extended reals.
-/
import proofs.«182243_j11751030522384_2_alg».proof.Proof.Gen.KernelIdeal.Frame
import proofs.«182243_j11751030522384_2_alg».proof.Proof.LibRowLayers
import proofs.«182243_j11751030522384_2_alg».proof.Proof.Region0
import Idealize.ShloMosaic.Lib.Pipeline.Value
import Idealize.ShloMosaic.Lib.ValueIdx

set_option maxRecDepth 16384

noncomputable section

namespace Cert.KernelIdeal.Layer2

open Idealize.ShloMosaic Idealize.ShloMosaic.TcCoe Idealize.ShloMosaic.ValueIdx Idealize.SL.Sem
open Idealize.ShloMosaic.Pipeline (Dat)
open Cert.KernelIdeal Cert.KernelIdeal.Gen
open Cert.Lib.BiasDot Cert.Lib.Dense Cert.Lib.RowLayers
open Cert.KernelIdeal.Layer0 (layer hz)

variable (V : (c : Dev nD) → (b : Ref sig .tc) → Buf (Elt Ideal) ((c : Thread nD τ).loc b))

/-- The body's stored value is the layer of its four loaded blocks. -/
theorem pay_eq (x0 x1 : Vec Ideal S2000x512 .f32) (x2 : Vec Ideal S512x512 .f32) (x3 : Vec Ideal S1x512 .f32) :
    k2_pay1 (F := Ideal) x0 x1 x2 x3 = layer x0 x1 x2 x3 := by
  unfold k2_pay1 layer
  dsimp only
  rw [shapeCast_self x0, shapeCast_self x1]
  exact reluLayer_eq _ rfl (addf x0 x1) x2 x3 _ _ _ _

/-- The printed index maps over the grid: windows 0, 1 and 4 move one block of rows per point, windows 2 and 3 stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Window 0's block at point t is rows 2000·t … of the table. -/
theorem blk0_apply (c : Dev nD) (t : Fin cfg2.N) (y : S2000x512.Idx) (i : S50000x512.Idx)
    (h0 : (i 0).val = 2000 * t.val + (y 0).val) (h1 : (i 1).val = (y 1).val) :
    (iblk2 V c 0 t : Vec Ideal S2000x512 .f32) y = (V c main_v23 : S50000x512.Idx → EReal) i := by
  obtain ⟨e0, e1, -⟩ := idx_facts t
  unfold iblk2
  rw [View.read_apply]
  show V c main_v23 _ = V c main_v23 _
  congr 1
  funext a
  apply Fin.ext
  match a with
  | ⟨0, _⟩ => show win2_0.index t (0 : Fin 2) * 2000 + 1 * (y 0).val = (i 0).val; rw [e0, h0]; omega
  | ⟨1, _⟩ => show win2_0.index t (1 : Fin 2) * 512 + 1 * (y 1).val = (i 1).val; rw [e1, h1]; omega

/-- Window 1's block at point t is the same rows of the aggregated sums. -/
theorem blk1_apply (c : Dev nD) (t : Fin cfg2.N) (y : S2000x512.Idx) (i : S50000x512.Idx)
    (h0 : (i 0).val = 2000 * t.val + (y 0).val) (h1 : (i 1).val = (y 1).val) :
    (iblk2 V c 1 t : Vec Ideal S2000x512 .f32) y = (V c main_v33 : S50000x512.Idx → EReal) i := by
  obtain ⟨-, -, e0, e1, -⟩ := idx_facts t
  unfold iblk2
  rw [View.read_apply]
  show V c main_v33 _ = V c main_v33 _
  congr 1
  funext a
  apply Fin.ext
  match a with
  | ⟨0, _⟩ => show win2_1.index t (0 : Fin 2) * 2000 + 1 * (y 0).val = (i 0).val; rw [e0, h0]; omega
  | ⟨1, _⟩ => show win2_1.index t (1 : Fin 2) * 512 + 1 * (y 1).val = (i 1).val; rw [e1, h1]; omega

/-- Window 2's block is the whole weight at every point. -/
theorem blk2_eq (c : Dev nD) (t : Fin cfg2.N) :
    (iblk2 V c 2 t : Vec Ideal S512x512 .f32) = (V c main_arg7 : S512x512.Idx → EReal) := by
  obtain ⟨-, -, -, -, e0, e1, -⟩ := idx_facts t
  funext y
  unfold iblk2
  rw [View.read_apply]
  show V c main_arg7 _ = V c main_arg7 _
  congr 1
  funext a
  apply Fin.ext
  match a with
  | ⟨0, _⟩ => show win2_2.index t (0 : Fin 2) * 512 + 1 * (y 0).val = (y 0).val; rw [e0]; omega
  | ⟨1, _⟩ => show win2_2.index t (1 : Fin 2) * 512 + 1 * (y 1).val = (y 1).val; rw [e1]; omega

/-- Window 3's block is the whole bias row at every point. -/
theorem blk3_eq (c : Dev nD) (t : Fin cfg2.N) :
    (iblk2 V c 3 t : Vec Ideal S1x512 .f32) = (V c main_v34 : S1x512.Idx → EReal) := by
  obtain ⟨-, -, -, -, -, -, e0, e1, -⟩ := idx_facts t
  funext y
  unfold iblk2
  rw [View.read_apply]
  show V c main_v34 _ = V c main_v34 _
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 512 + 1 * (y 1).val = (y 1).val; rw [e1]; omega

/-- The layer on a block of rows is the layer of the whole arrays at those rows. -/
theorem layer_rows (x0 x1 : Vec Ideal S2000x512 .f32) (h a : FVec Ideal S50000x512 .f32)
    (W : FVec Ideal S512x512 .f32) (b : FVec Ideal S1x512 .f32) (j : S2000x512.Idx) (i : S50000x512.Idx)
    (hx0 : ∀ k : Fin 512, x0 (ix2 (j 0) k) = h (ix2 (i 0) k)) (hx1 : ∀ k : Fin 512, x1 (ix2 (j 0) k) = a (ix2 (i 0) k))
    (hcol : (i 1).val = (j 1).val) :
    layer x0 x1 W b j = layer h a W b i := by
  have e1 : (i 1 : Fin 512) = j 1 := Fin.ext hcol
  unfold layer
  refine layer_block (m := 2000) (M := 50000) (K := 512) (N := 512) (addf x0 x1 : FVec Ideal S2000x512 .f32) W b (addf h a : FVec Ideal S50000x512 .f32) W b j i (fun k => ?_) (fun k => ?_) ?_
  · rw [addf_apply, addf_apply, hx0 k, hx1 k]
  · rw [e1]
  · rw [e1]

/-- What point t writes back is block t of the layer of the arrays as the region finds them. -/
theorem flushed_eq (c : Dev nD) (t : Fin cfg2.N) :
    (dat2 V c).flushed 4 t = ((cfg2.win 4).blk t).view.read (Elt Ideal)
      (layer (M := 50000) (V c main_v23) (V c main_v33) (V c main_arg7) (V c main_v34)) := by
  show (cfg2.win 4).cut (grid2.coords t) ((dat2 V c).after 4 t) = _
  rw [after2_4]
  unfold out2_4
  rw [View.canon_unit_zero hz]
  simp only [View.ld_unit_zero (S := S2000x512) hz, View.ld_unit_zero (S := S512x512) hz, View.ld_unit_zero (S := S1x512) hz]
  rw [pay_eq, blk2_eq V c t, blk3_eq V c t]
  obtain ⟨-, -, -, -, -, -, -, -, e0, e1⟩ := idx_facts t
  funext j
  show layer (iblk2 V c 0 t : Vec Ideal S2000x512 .f32) (iblk2 V c 1 t : Vec Ideal S2000x512 .f32) (V c main_arg7) (V c main_v34) j
    = layer (M := 50000) (V c main_v23) (V c main_v33) (V c main_arg7) (V c main_v34) (((cfg2.win 4).blk t).view.emb j)
  have hr : ((((cfg2.win 4).blk t).view.emb j : S50000x512.Idx) 0).val = 2000 * t.val + (j 0).val := by
    show win2_4.index t (0 : Fin 2) * 2000 + 1 * (j 0).val = _; rw [e0]; omega
  have hc : ((((cfg2.win 4).blk t).view.emb j : S50000x512.Idx) 1).val = (j 1).val := by
    show win2_4.index t (1 : Fin 2) * 512 + 1 * (j 1).val = _; rw [e1]; omega
  refine layer_rows _ _ _ _ _ _ j _ (fun k => ?_) (fun k => ?_) hc
  · exact blk0_apply V c t _ _ hr rfl
  · exact blk1_apply V c t _ _ hr rfl

/-- An index of the output array is in point t's block iff its row is among that block's rows. -/
theorem mem_blk (t : Fin cfg2.N) (i : S50000x512.Idx) :
    i ∈ ((cfg2.win 4).blk t).view.set ↔ ∀ a : Fin 2, win2_4.index t a * S2000x512.size a ≤ (i a).val ∧ (i a).val < win2_4.index t a * S2000x512.size a + S2000x512.size a := by
  show i ∈ ((View.whole main_v35).slice (win2_4.rect t)).set ↔ _
  rw [View.set_slice_whole, Rect.mem_set_unit]
  exact Iff.rfl

/-- The 25 blocks of 2000 rows cover the 50000 rows: row n is in the block of point n / 2000. -/
theorem cover (i : S50000x512.Idx) : ∃ t : Fin cfg2.N, (cfg2.win 4).flush t = true ∧ i ∈ ((cfg2.win 4).blk t).view.set := by
  have hN : cfg2.N = 25 := N_2
  have hi0 : (i 0).val < 50000 := (i 0).isLt
  have hi1 : (i 1).val < 512 := (i 1).isLt
  let t : Fin cfg2.N := ⟨(i 0).val / 2000, by rw [hN]; omega⟩
  have ht : t.val = (i 0).val / 2000 := rfl
  obtain ⟨-, -, -, -, -, -, -, -, e0, e1⟩ := idx_facts t
  refine ⟨t, flush2_4 t, ?_⟩
  rw [mem_blk]
  intro a
  match a with
  | ⟨0, _⟩ => show win2_4.index t (0 : Fin 2) * 2000 ≤ (i 0).val ∧ (i 0).val < win2_4.index t (0 : Fin 2) * 2000 + 2000; rw [e0, ht]; omega
  | ⟨1, _⟩ => show win2_4.index t (1 : Fin 2) * 512 ≤ (i 1).val ∧ (i 1).val < win2_4.index t (1 : Fin 2) * 512 + 512; rw [e1]; omega

/-- The output array after the region: the layer of the arrays the region was entered with. -/
theorem final (c : Dev nD) : (dat2 V c).arrAt 4 cfg2.N
    = layer (M := 50000) (V c main_v23) (V c main_v33) (V c main_arg7) (V c main_v34) :=
  (dat2 V c).arrAt_eq_of_cover 4 _ (fun t _ => flushed_eq V c t) cover

/-- An input array ends as the region found it. -/
theorem kept (c : Dev nD) (w : Fin cfg2.W) (hw : w ≠ 4) : (dat2 V c).arrAt w cfg2.N = V c (Pipeline.arrRef spec2 w) := by
  match w, hw with
  | ⟨0, _⟩, _ => exact ((dat2 V c).arrAt_in 0 rfl _).trans (A_eq2 V c 0)
  | ⟨1, _⟩, _ => exact ((dat2 V c).arrAt_in 1 rfl _).trans (A_eq2 V c 1)
  | ⟨2, _⟩, _ => exact ((dat2 V c).arrAt_in 2 rfl _).trans (A_eq2 V c 2)
  | ⟨3, _⟩, _ => exact ((dat2 V c).arrAt_in 3 rfl _).trans (A_eq2 V c 3)
  | ⟨4, _⟩, h => exact absurd rfl h

end Cert.KernelIdeal.Layer2

end
-- ==== Proof.Region3.lean ====
/-
  The classifier's kernel region, read whole.

  The region's grid has 25 points; point t works on rows 2000·t … 2000·t + 1999 of the node table h. Its body
  multiplies the block by the whole 512 × 128 weight W into a zero accumulator and adds the 1 × 128 bias row b to
  every row. An entry of the result depends on one row of h only, so the block point t writes back is rows 2000·t …
  of ONE function of the whole arrays,
      head h W b (n, q) = ∑ k, h (n, k) · W (k, q) + b (0, q) ,
  and since the 25 blocks tile the 50000 rows, the output array ends holding that function everywhere.
  Narrowing the operands to a shorter float format before the product is the identity on extended reals.
-/
import proofs.«182243_j11751030522384_2_alg».proof.Proof.Gen.KernelIdeal.Frame
import proofs.«182243_j11751030522384_2_alg».proof.Proof.LibRowLayers
import Idealize.ShloMosaic.Lib.Pipeline.Value
import Idealize.ShloMosaic.Lib.ValueIdx

set_option maxRecDepth 16384

noncomputable section

namespace Cert.KernelIdeal.Head

open Idealize.ShloMosaic Idealize.ShloMosaic.TcCoe Idealize.ShloMosaic.ValueIdx Idealize.SL.Sem
open Idealize.ShloMosaic.Pipeline (Dat)
open Cert.KernelIdeal Cert.KernelIdeal.Gen
open Cert.Lib.BiasDot Cert.Lib.Dense Cert.Lib.RowLayers

variable (V : (c : Dev nD) → (b : Ref sig .tc) → Buf (Elt Ideal) ((c : Thread nD τ).loc b))

theorem hz : (![0, 0] : Fin 2 → Nat) = fun _ => 0 := funext fun a => by fin_cases a <;> rfl

/-- The classifier as a function of whole arrays: h · W plus the bias row. -/
def head {M : Nat} (h : FVec Ideal ⟨2, ![M, 512]⟩ .f32) (W : FVec Ideal S512x128 .f32) (b : FVec Ideal S1x128 .f32) :
    FVec Ideal ⟨2, ![M, 128]⟩ .f32 :=
  lin h W (rowVec b)

/-- The body's stored value is the classifier of its three loaded blocks. -/
theorem pay_eq (x0 : Vec Ideal S2000x512 .f32) (x1 : Vec Ideal S512x128 .f32) (x2 : Vec Ideal S1x128 .f32) :
    k3_pay1 (F := Ideal) x0 x1 x2 = head x0 x1 x2 := by
  unfold k3_pay1 head
  dsimp only
  rw [shapeCast_self x0, shapeCast_self x1]
  exact linLayer_eq _ rfl x0 x1 x2 _ _ _ _

/-- The printed index maps over the grid: windows 0 and 3 move one block of rows per point, windows 1 and 2 stay. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Window 0's block at point t is rows 2000·t … of the table. -/
theorem blk0_apply (c : Dev nD) (t : Fin cfg3.N) (y : S2000x512.Idx) (i : S50000x512.Idx)
    (h0 : (i 0).val = 2000 * t.val + (y 0).val) (h1 : (i 1).val = (y 1).val) :
    (iblk3 V c 0 t : Vec Ideal S2000x512 .f32) y = (V c main_v35 : S50000x512.Idx → EReal) i := by
  obtain ⟨e0, e1, -⟩ := idx_facts t
  unfold iblk3
  rw [View.read_apply]
  show V c main_v35 _ = V c main_v35 _
  congr 1
  funext a
  apply Fin.ext
  match a with
  | ⟨0, _⟩ => show win3_0.index t (0 : Fin 2) * 2000 + 1 * (y 0).val = (i 0).val; rw [e0, h0]; omega
  | ⟨1, _⟩ => show win3_0.index t (1 : Fin 2) * 512 + 1 * (y 1).val = (i 1).val; rw [e1, h1]; omega

/-- Window 1's block is the whole weight at every point. -/
theorem blk1_eq (c : Dev nD) (t : Fin cfg3.N) :
    (iblk3 V c 1 t : Vec Ideal S512x128 .f32) = (V c main_v36 : S512x128.Idx → EReal) := by
  obtain ⟨-, -, e0, e1, -⟩ := idx_facts t
  funext y
  unfold iblk3
  rw [View.read_apply]
  show V c main_v36 _ = V c main_v36 _
  congr 1
  funext a
  apply Fin.ext
  match a with
  | ⟨0, _⟩ => show win3_1.index t (0 : Fin 2) * 512 + 1 * (y 0).val = (y 0).val; rw [e0]; omega
  | ⟨1, _⟩ => show win3_1.index t (1 : Fin 2) * 128 + 1 * (y 1).val = (y 1).val; rw [e1]; omega

/-- Window 2's block is the whole bias row at every point. -/
theorem blk2_eq (c : Dev nD) (t : Fin cfg3.N) :
    (iblk3 V c 2 t : Vec Ideal S1x128 .f32) = (V c main_v38 : S1x128.Idx → EReal) := by
  obtain ⟨-, -, -, -, e0, e1, -⟩ := idx_facts t
  funext y
  unfold iblk3
  rw [View.read_apply]
  show V c main_v38 _ = V c main_v38 _
  congr 1
  funext a
  apply Fin.ext
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

/-- The classifier on a block of rows is the classifier of the whole arrays at those rows. -/
theorem head_rows (x0 : Vec Ideal S2000x512 .f32) (h : FVec Ideal S50000x512 .f32)
    (W : FVec Ideal S512x128 .f32) (b : FVec Ideal S1x128 .f32) (j : S2000x128.Idx) (i : S50000x128.Idx)
    (hx0 : ∀ k : Fin 512, x0 (ix2 (j 0) k) = h (ix2 (i 0) k)) (hcol : (i 1).val = (j 1).val) :
    head x0 W b j = head h W b i := by
  have e1 : (i 1 : Fin 128) = j 1 := Fin.ext hcol
  show (∑ k : Fin 512, x0 (ix2 (j 0) k) * W (ix2 k (j 1))) + rowVec b (ix1 (j 1))
    = (∑ k : Fin 512, h (ix2 (i 0) k) * W (ix2 k (i 1))) + rowVec b (ix1 (i 1))
  rw [e1]
  exact congrArg (fun z => z + rowVec b (ix1 (j 1))) (Finset.sum_congr rfl fun k _ => by rw [hx0 k])

/-- What point t writes back is block t of the classifier of the arrays as the region finds them. -/
theorem flushed_eq (c : Dev nD) (t : Fin cfg3.N) :
    (dat3 V c).flushed 3 t = ((cfg3.win 3).blk t).view.read (Elt Ideal)
      (head (M := 50000) (V c main_v35) (V c main_v36) (V c main_v38)) := by
  show (cfg3.win 3).cut (grid3.coords t) ((dat3 V c).after 3 t) = _
  rw [after3_3]
  unfold out3_3
  rw [View.canon_unit_zero hz]
  simp only [View.ld_unit_zero (S := S2000x512) hz, View.ld_unit_zero (S := S512x128) hz, View.ld_unit_zero (S := S1x128) hz]
  rw [pay_eq, blk1_eq V c t, blk2_eq V c t]
  obtain ⟨-, -, -, -, -, -, e0, e1⟩ := idx_facts t
  funext j
  show head (iblk3 V c 0 t : Vec Ideal S2000x512 .f32) (V c main_v36) (V c main_v38) j
    = head (M := 50000) (V c main_v35) (V c main_v36) (V c main_v38) (((cfg3.win 3).blk t).view.emb j)
  have hr : ((((cfg3.win 3).blk t).view.emb j : S50000x128.Idx) 0).val = 2000 * t.val + (j 0).val := by
    show win3_3.index t (0 : Fin 2) * 2000 + 1 * (j 0).val = _; rw [e0]; omega
  have hc : ((((cfg3.win 3).blk t).view.emb j : S50000x128.Idx) 1).val = (j 1).val := by
    show win3_3.index t (1 : Fin 2) * 128 + 1 * (j 1).val = _; rw [e1]; omega
  refine head_rows _ _ _ _ j _ (fun k => ?_) hc
  exact blk0_apply V c t _ _ hr rfl

/-- An index of the output array is in point t's block iff its row is among that block's rows. -/
theorem mem_blk (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v39).slice (win3_3.rect t)).set ↔ _
  rw [View.set_slice_whole, Rect.mem_set_unit]
  exact Iff.rfl

/-- The 25 blocks of 2000 rows cover the 50000 rows: row n is in the block of point n / 2000. -/
theorem cover (i : S50000x128.Idx) : ∃ t : Fin cfg3.N, (cfg3.win 3).flush t = true ∧ i ∈ ((cfg3.win 3).blk t).view.set := by
  have hN : cfg3.N = 25 := N_3
  have hi0 : (i 0).val < 50000 := (i 0).isLt
  have hi1 : (i 1).val < 128 := (i 1).isLt
  let t : Fin cfg3.N := ⟨(i 0).val / 2000, by rw [hN]; omega⟩
  have ht : t.val = (i 0).val / 2000 := rfl
  obtain ⟨-, -, -, -, -, -, e0, e1⟩ := idx_facts t
  refine ⟨t, flush3_3 t, ?_⟩
  rw [mem_blk]
  intro a
  match a with
  | ⟨0, _⟩ => show win3_3.index t (0 : Fin 2) * 2000 ≤ (i 0).val ∧ (i 0).val < win3_3.index t (0 : Fin 2) * 2000 + 2000; rw [e0, ht]; omega
  | ⟨1, _⟩ => show win3_3.index t (1 : Fin 2) * 128 ≤ (i 1).val ∧ (i 1).val < win3_3.index t (1 : Fin 2) * 128 + 128; rw [e1]; omega

/-- The output array after the region: the classifier of the arrays the region was entered with. -/
theorem final (c : Dev nD) : (dat3 V c).arrAt 3 cfg3.N
    = head (M := 50000) (V c main_v35) (V c main_v36) (V c main_v38) :=
  (dat3 V c).arrAt_eq_of_cover 3 _ (fun t _ => flushed_eq V c t) cover

/-- An input array ends as the region found it. -/
theorem kept (c : Dev nD) (w : Fin cfg3.W) (hw : w ≠ 3) : (dat3 V c).arrAt w cfg3.N = V c (Pipeline.arrRef spec3 w) := by
  match w, hw with
  | ⟨0, _⟩, _ => exact ((dat3 V c).arrAt_in 0 rfl _).trans (A_eq3 V c 0)
  | ⟨1, _⟩, _ => exact ((dat3 V c).arrAt_in 1 rfl _).trans (A_eq3 V c 1)
  | ⟨2, _⟩, _ => exact ((dat3 V c).arrAt_in 2 rfl _).trans (A_eq3 V c 2)
  | ⟨3, _⟩, h => exact absurd rfl h

end Cert.KernelIdeal.Head

end
-- ==== Proof.LibRegionOp.lean ====
/-
  General facts about a kernel region read as ONE host operation.

  A region's run leaves its arrays at what the write-backs make of them and every other buffer as it was. When
  the region has one output array, whose final contents are a function of the entry contents of the input
  arrays, and its input arrays end as entered, this is exactly what a single host operation computing that
  function into the output array leaves: `withArrays_eq_result`. A run of host operations interleaved with
  regions is then one fold of operations, and a buffer's contents after it are read operation by operation.

  Also: the value an operation with a LITERAL family of five or of seven operands leaves in its result, with
  each operand's contents named at its own reference (the library states this for four operands), and operations of
  five and of seven operands with a curried function, whose result is the function of the operands' contents.
-/
import Idealize.ShloMosaic.Lib.StableHlo.Run
import Idealize.ShloMosaic.Lib.Pipeline.FrameSuffix
import Idealize.ShloMosaic.Lib.Pipeline.Value

noncomputable section

namespace Cert.Lib.RegionOp

open Idealize.ShloMosaic Idealize.ShloMosaic.TcCoe

variable {nD : Nat} {τ : Topo} {sig : RefSig} {Val : EltTy → Type}

/-- The contents a region leaves — its arrays at `A`, every other buffer at `V` — are what an operation `op`
    writing only the output array leaves of `V`, when the output array ends at the operation's value and every
    other array of the region ends as entered. -/
theorem withArrays_eq_result {gr W : Nat} (win : Fin W → Pipeline.WinSpec sig gr)
    (hinj : Function.Injective (Pipeline.arrRef win)) (c : Dev nD) (V : Valuation τ sig Val)
    (A : (w : Fin W) → Buf Val ((win w).arr.view.loc (c.tc : Thread nD τ)))
    (op : HloOp τ sig Val) (wo : Fin W)
    (hw : op.writes = {Proc.devRef .tc (Pipeline.arrRef win wo)})
    (hout : A wo = op.result V (Proc.devRef .tc (Pipeline.arrRef win wo)))
    (hin : ∀ w, w ≠ wo → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = wo
    · subst hwo; exact hout
    · rw [hin w hwo, op.result_of_not_mem V (by
        rw [hw, Finset.mem_singleton]; exact fun e => hwo (hinj (Proc.devRef_injective _ e)))]
  · unfold Pipeline.withArrays
    rw [dif_neg h, op.result_of_not_mem V (by
      rw [hw, Finset.mem_singleton]; exact fun e => h ⟨wo, e.symm⟩)]

section Families

variable {x0 x1 x2 x3 x4 x5 x6 y : Ref sig .tc}

/-- The result of an operation on a literal family of five operands, each operand's contents at its own reference. -/
theorem nary5_result'
    (f : ((k : Fin 5) → ((![x0, x1, x2, x3, x4] : Fin 5 → Ref sig .tc) k).ty.Contents Val) → y.ty.Contents Val) (hxs hy)
    (F : Valuation τ sig Val) :
    (StableHlo.nary (τ := τ) ![x0, x1, x2, x3, x4] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (fun i => i.elim0)))))) := by
  rw [StableHlo.nary_result']; congr 1; funext k; fin_cases k <;> rfl

/-- The result of an operation on a literal family of seven operands, each operand's contents at its own reference. -/
theorem nary7_result'
    (f : ((k : Fin 7) → ((![x0, x1, x2, x3, x4, x5, x6] : Fin 7 → Ref sig .tc) k).ty.Contents Val) → y.ty.Contents Val) (hxs hy)
    (F : Valuation τ sig Val) :
    (StableHlo.nary (τ := τ) ![x0, x1, x2, x3, x4, x5, x6] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (fun i => i.elim0)))))))) := by
  rw [StableHlo.nary_result']; congr 1; funext k; fin_cases k <;> rfl

end Families

section Curried

/-- An operation of 5 operands into `y`, its function curried: `y` takes `G` of the operands' contents. -/
def op5 (x0 x1 x2 x3 x4 y : Ref sig .tc) (G : x0.ty.Contents Val → x1.ty.Contents Val → x2.ty.Contents Val → x3.ty.Contents Val → x4.ty.Contents Val → y.ty.Contents Val)
    (hxs : ∀ k, ((![x0, x1, x2, x3, x4] : Fin 5 → Ref sig .tc) k).space ≠ .host ∧ (((![x0, x1, x2, x3, x4] : Fin 5 → Ref sig .tc) k : Ref sig .tc) : DevRef τ sig).isScoped = false)
    (hy : y.space ≠ .host ∧ (y : DevRef τ sig).isScoped = false) : HloOp τ sig Val :=
  StableHlo.nary ![x0, x1, x2, x3, x4] y (fun u => G (u 0) (u 1) (u 2) (u 3) (u 4)) hxs hy

/-- What it leaves in its result: `G` of the operands' contents, each at its own reference. -/
theorem op5_result' (x0 x1 x2 x3 x4 y : Ref sig .tc) (G : x0.ty.Contents Val → x1.ty.Contents Val → x2.ty.Contents Val → x3.ty.Contents Val → x4.ty.Contents Val → y.ty.Contents Val) (hxs) (hy) (F : Valuation τ sig Val) :
    (op5 (τ := τ) x0 x1 x2 x3 x4 y G hxs hy).result F (no_index (Proc.devRef .tc y)) = G (F (Proc.devRef .tc x0)) (F (Proc.devRef .tc x1)) (F (Proc.devRef .tc x2)) (F (Proc.devRef .tc x3)) (F (Proc.devRef .tc x4)) := by
  unfold op5
  rw [StableHlo.nary_result']
  rfl

/-- Every other buffer it leaves alone. -/
theorem op5_result_ne' (x0 x1 x2 x3 x4 y : Ref sig .tc) (G : x0.ty.Contents Val → x1.ty.Contents Val → x2.ty.Contents Val → x3.ty.Contents Val → x4.ty.Contents Val → y.ty.Contents Val) (hxs) (hy) (F : Valuation τ sig Val)
    {r : Ref sig .tc} (h : r ≠ y) :
    (op5 (τ := τ) x0 x1 x2 x3 x4 y G hxs hy).result F (no_index (Proc.devRef .tc r)) = F (Proc.devRef .tc r) := by
  unfold op5
  exact StableHlo.nary_result_ne' _ _ _ _ _ h

/-- It writes its result buffer only. -/
theorem op5_writes (x0 x1 x2 x3 x4 y : Ref sig .tc) (G : x0.ty.Contents Val → x1.ty.Contents Val → x2.ty.Contents Val → x3.ty.Contents Val → x4.ty.Contents Val → y.ty.Contents Val) (hxs) (hy) :
    (op5 (τ := τ) x0 x1 x2 x3 x4 y G hxs hy).writes = {Proc.devRef .tc y} := rfl

/-- An operation of 7 operands into `y`, its function curried: `y` takes `G` of the operands' contents. -/
def op7 (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val)
    (hxs : ∀ k, ((![x0, x1, x2, x3, x4, x5, x6] : Fin 7 → Ref sig .tc) k).space ≠ .host ∧ (((![x0, x1, x2, x3, x4, x5, x6] : Fin 7 → Ref sig .tc) k : Ref sig .tc) : DevRef τ sig).isScoped = false)
    (hy : y.space ≠ .host ∧ (y : DevRef τ sig).isScoped = false) : HloOp τ sig Val :=
  StableHlo.nary ![x0, x1, x2, x3, x4, x5, x6] y (fun u => G (u 0) (u 1) (u 2) (u 3) (u 4) (u 5) (u 6)) hxs hy

/-- What it leaves in its result: `G` of the operands' contents, each at its own reference. -/
theorem op7_result' (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val) (hxs) (hy) (F : Valuation τ sig Val) :
    (op7 (τ := τ) x0 x1 x2 x3 x4 x5 x6 y G hxs hy).result F (no_index (Proc.devRef .tc y)) = G (F (Proc.devRef .tc x0)) (F (Proc.devRef .tc x1)) (F (Proc.devRef .tc x2)) (F (Proc.devRef .tc x3)) (F (Proc.devRef .tc x4)) (F (Proc.devRef .tc x5)) (F (Proc.devRef .tc x6)) := by
  unfold op7
  rw [StableHlo.nary_result']
  rfl

/-- Every other buffer it leaves alone. -/
theorem op7_result_ne' (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val) (hxs) (hy) (F : Valuation τ sig Val)
    {r : Ref sig .tc} (h : r ≠ y) :
    (op7 (τ := τ) x0 x1 x2 x3 x4 x5 x6 y G hxs hy).result F (no_index (Proc.devRef .tc r)) = F (Proc.devRef .tc r) := by
  unfold op7
  exact StableHlo.nary_result_ne' _ _ _ _ _ h

/-- It writes its result buffer only. -/
theorem op7_writes (x0 x1 x2 x3 x4 x5 x6 y : Ref sig .tc) (G : x0.ty.Contents Val → x1.ty.Contents Val → x2.ty.Contents Val → x3.ty.Contents Val → x4.ty.Contents Val → x5.ty.Contents Val → x6.ty.Contents Val → y.ty.Contents Val) (hxs) (hy) :
    (op7 (τ := τ) x0 x1 x2 x3 x4 x5 x6 y G hxs hy).writes = {Proc.devRef .tc y} := rfl

end Curried

end Cert.Lib.RegionOp

end
-- ==== Proof.LibTyped.lean ====
/-
  The contents of a typed reference, transported to its buffer's type and back.

  A value of an outlined function is held at a typed reference: its contents are carried to the buffer's own
  type (`toBuf`) when written and back (`ofBuf`) when read, both along the reference's type equation. Carried
  there and back — a result written by one operation and read by the next — they are unchanged. Stated for any
  typed reference, so a rewriting pass can drop every such pair without computing a buffer's type.
-/
import Idealize.ShloMosaic.Lib.StableHlo

namespace Cert.Lib.Typed

open Idealize.ShloMosaic Idealize.ShloMosaic.StableHlo

variable {sig : RefSig} {Val : EltTy → Type} {T : BufTy}

/-- Written to the buffer's type and read back at the value's type: unchanged. -/
theorem ofBuf_toBuf (x : TRef sig T) (v : T.Contents Val) : x.ofBuf (x.toBuf v) = v := by
  obtain ⟨r, h, h1, h2⟩ := x
  subst h
  rfl

/-- Read at the value's type and written back to the buffer's type: unchanged. -/
theorem toBuf_ofBuf (x : TRef sig T) (v : x.ref.ty.Contents Val) : x.toBuf (x.ofBuf v) = v := by
  obtain ⟨r, h, h1, h2⟩ := x
  subst h
  rfl

end Cert.Lib.Typed
-- ==== Proof.Fold.lean ====
/-
  The idealized kernel program's result as a function of its arguments.

  A kernel region whose one output array ends at a function of the arrays it was entered with, and whose input arrays
  end as entered, leaves the buffers exactly as ONE host operation computing that function into the output array would.
  So the program — host stretches and four regions — is one line of operations, and the result buffer after it is read
  operation by operation: three graph layers
      h ↦ layer h (agg h src dst) W (b as a 1 × 512 row),
  with `agg` the host's gather of the source rows scattered-and-added into zeros by destination (carried as one
  opaque function, never opened), then the classifier on the weight and bias padded to 128 lanes, then the first 40
  columns sliced out.
-/
import proofs.«182243_j11751030522384_2_alg».proof.Proof.Gen.KernelIdeal.Frame
import proofs.«182243_j11751030522384_2_alg».proof.Proof.Region0
import proofs.«182243_j11751030522384_2_alg».proof.Proof.Region1
import proofs.«182243_j11751030522384_2_alg».proof.Proof.Region2
import proofs.«182243_j11751030522384_2_alg».proof.Proof.Region3
import proofs.«182243_j11751030522384_2_alg».proof.Proof.LibRegionOp
import proofs.«182243_j11751030522384_2_alg».proof.Proof.LibTyped

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen
open Cert.KernelIdeal.Layer0 (layer)
open Cert.KernelIdeal.Head (head)

variable (m : (ℓ : Loc nD τ sig) → Buf (Elt Ideal) ℓ) (ρ : Dev nD → PrngReg)

/-- An array of 400000 edge endpoints. -/
abbrev Edges := (⟨S400000, .i32⟩ : BufTy).Contents (Elt Ideal)

/-- The neighbour sums of a node table: the source rows gathered, then added into a table of zeros by destination. -/
def agg (h : FVec Ideal S50000x512 .f32) (src dst : Edges) : FVec Ideal S50000x512 .f32 :=
  Host.scatterAdd (F := Ideal) scatter_S50000x512_S400000x1_S400000x512_1_0_0_1
    (broadcastInDim S50000x512 ![] bcast_S_S50000x512 (constant (F := Ideal) S_ .f32 0x00000000#32))
    (broadcastInDim S400000x1 ![0] bcast_S400000_S400000x1_0 dst)
    (Host.gather gather_S50000x512_S400000x1_S400000x512_1_0_n_n_0_1_1512 h
      (broadcastInDim S400000x1 ![0] bcast_S400000_S400000x1_0
        (select (cmpi .slt src (broadcastInDim S400000 ![] bcast_S_S400000 (constantI S_ 32 0#32)))
          (addi src (broadcastInDim S400000 ![] bcast_S_S400000 (constantI S_ 32 50000#32))) src)))

/-- One graph layer of the kernel program: the region's layer on the table, its neighbour sums, the weight and the
    bias viewed as a row. -/
def gin (h : FVec Ideal S50000x512 .f32) (src dst : Edges) (W : FVec Ideal S512x512 .f32) (b : FVec Ideal S512 .f32) :
    FVec Ideal S50000x512 .f32 :=
  layer (M := 50000) h (agg h src dst) W (shapeCast S1x512 b shapeCasts_S512_S1x512)

/-- The padding value the program computes: the integer zero converted to a float. -/
def padValue : (⟨S_, .f32⟩ : BufTy).Contents (Elt Ideal) := sitofp (F := Ideal) .f32 (constantI S_ 32 0#32)

/-- The whole kernel program: three layers, the classifier on the padded weight and bias, the first 40 columns. -/
def kernelNet (a0 : FVec Ideal S50000x512 .f32) (a1 a2 : Edges) (a3 : FVec Ideal S512x512 .f32) (a4 : FVec Ideal S512 .f32)
    (a5 : FVec Ideal S512x512 .f32) (a6 : FVec Ideal S512 .f32) (a7 : FVec Ideal S512x512 .f32) (a8 : FVec Ideal S512 .f32)
    (a9 : FVec Ideal S512x40 .f32) (a10 : FVec Ideal S40 .f32) : FVec Ideal S50000x40 .f32 :=
  extractStridedSlice S50000x40 ![0, 0]
    (head (M := 50000) (gin (gin (gin a0 a1 a2 a3 a4) a1 a2 a5 a6) a1 a2 a7 a8)
      (pad S512x128 ![0, 0] ![0, 88] ![0, 0] a9 padValue pads_S512x40_S512x128_000_0880 h_S_)
      (shapeCast S1x128 (pad S128 ![0] ![88] ![0] a10 padValue pads_S40_S128_0880 h_S_) shapeCasts_S128_S1x128))
    slices_S50000x128_S50000x40_0_0

/-! ## Each region as one operation -/

/-- Region 0: the layer of (table, sums, weight, bias row) into the region's output. -/
abbrev op0 : HloOp τ sig (Elt Ideal) :=
  quaternary main_arg0 main_v9 main_arg3 main_v10 main_v11
    ((fun h a W b => layer (M := 50000) h a W b) : (⟨S50000x512, .f32⟩ : BufTy).Contents (Elt Ideal) → (⟨S50000x512, .f32⟩ : BufTy).Contents (Elt Ideal) → (⟨S512x512, .f32⟩ : BufTy).Contents (Elt Ideal) → (⟨S1x512, .f32⟩ : BufTy).Contents (Elt Ideal) → (⟨S50000x512, .f32⟩ : BufTy).Contents (Elt Ideal))
/-- Region 1. -/
abbrev op1 : HloOp τ sig (Elt Ideal) :=
  quaternary main_v11 main_v21 main_arg5 main_v22 main_v23
    ((fun h a W b => layer (M := 50000) h a W b) : (⟨S50000x512, .f32⟩ : BufTy).Contents (Elt Ideal) → (⟨S50000x512, .f32⟩ : BufTy).Contents (Elt Ideal) → (⟨S512x512, .f32⟩ : BufTy).Contents (Elt Ideal) → (⟨S1x512, .f32⟩ : BufTy).Contents (Elt Ideal) → (⟨S50000x512, .f32⟩ : BufTy).Contents (Elt Ideal))
/-- Region 2. -/
abbrev op2 : HloOp τ sig (Elt Ideal) :=
  quaternary main_v23 main_v33 main_arg7 main_v34 main_v35
    ((fun h a W b => layer (M := 50000) h a W b) : (⟨S50000x512, .f32⟩ : BufTy).Contents (Elt Ideal) → (⟨S50000x512, .f32⟩ : BufTy).Contents (Elt Ideal) → (⟨S512x512, .f32⟩ : BufTy).Contents (Elt Ideal) → (⟨S1x512, .f32⟩ : BufTy).Contents (Elt Ideal) → (⟨S50000x512, .f32⟩ : BufTy).Contents (Elt Ideal))
/-- Region 3: the classifier of (table, padded weight, padded bias row). -/
abbrev op3 : HloOp τ sig (Elt Ideal) :=
  ternary main_v35 main_v36 main_v38 main_v39
    ((fun h W b => head (M := 50000) h W b) : (⟨S50000x512, .f32⟩ : BufTy).Contents (Elt Ideal) → (⟨S512x128, .f32⟩ : BufTy).Contents (Elt Ideal) → (⟨S1x128, .f32⟩ : BufTy).Contents (Elt Ideal) → (⟨S50000x128, .f32⟩ : BufTy).Contents (Elt Ideal))

theorem W2_eq (c : Dev nD) : W2 m ρ c = (op0).result (W1 m ρ c) := by
  unfold W2
  refine Cert.Lib.RegionOp.withArrays_eq_result spec0 launch0.win.arr_inj c (W1 m ρ c) _ op0 4 rfl ?_ (fun w hw => ?_)
  · refine (Layer0.final (V1 m ρ) c).trans ?_
    exact (quaternary_result main_arg0 main_v9 main_arg3 main_v10 main_v11 _ _ _ _ _ _ (W1 m ρ c)).symm
  · exact Layer0.kept (V1 m ρ) c w hw

theorem W4_eq (c : Dev nD) : W4 m ρ c = (op1).result (W3 m ρ c) := by
  unfold W4
  refine Cert.Lib.RegionOp.withArrays_eq_result spec1 launch1.win.arr_inj c (W3 m ρ c) _ op1 4 rfl ?_ (fun w hw => ?_)
  · refine (Layer1.final (V3 m ρ) c).trans ?_
    exact (quaternary_result main_v11 main_v21 main_arg5 main_v22 main_v23 _ _ _ _ _ _ (W3 m ρ c)).symm
  · exact Layer1.kept (V3 m ρ) c w hw

theorem W6_eq (c : Dev nD) : W6 m ρ c = (op2).result (W5 m ρ c) := by
  unfold W6
  refine Cert.Lib.RegionOp.withArrays_eq_result spec2 launch2.win.arr_inj c (W5 m ρ c) _ op2 4 rfl ?_ (fun w hw => ?_)
  · refine (Layer2.final (V5 m ρ) c).trans ?_
    exact (quaternary_result main_v23 main_v33 main_arg7 main_v34 main_v35 _ _ _ _ _ _ (W5 m ρ c)).symm
  · exact Layer2.kept (V5 m ρ) c w hw

theorem W12_eq (c : Dev nD) : W12 m ρ c = (op3).result (W11 m ρ c) := by
  unfold W12
  refine Cert.Lib.RegionOp.withArrays_eq_result spec3 launch3.win.arr_inj c (W11 m ρ c) _ op3 3 rfl ?_ (fun w hw => ?_)
  · refine (Head.final (V11 m ρ) c).trans ?_
    exact (ternary_result main_v35 main_v36 main_v38 main_v39 _ _ _ _ _ (W11 m ρ c)).symm
  · exact Head.kept (V11 m ρ) c w hw

/-! ## The whole line, read at the result -/

set_option maxRecDepth 400000 in
set_option maxHeartbeats 4000000 in
/-- The last boundary's contents at the result buffer: the whole network of the launch contents of the arguments. -/
theorem result_eq (c : Dev nD) : W13 m ρ c (Proc.devRef .tc main_v40)
    = kernelNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  simp only [W13, W11, W10, W9, W8, W7, W5, W3, W1, W12_eq, W6_eq, W4_eq, W2_eq]
  simp (disch := decide) only [hostOps0, hostOps1, hostOps2, hostOps3, hostOps3_1, hostOps3_2, hostOps3_3, hostOps3_4, hostOps4,
    after_cons, after_nil,
    nullary_result', unary_result', binary_result', ternary_result', quaternary_result', reshape_result',
    nullary_result_ne', unary_result_ne', binary_result_ne', ternary_result_ne', quaternary_result_ne', reshape_result_ne',
    Cert.Lib.Typed.ofBuf_toBuf]
  rfl

end Cert.KernelIdeal.Fold

end
-- ==== Proof.LibCatDot.lean ====
/-
  The host's linear layers without a positive part, as whole-array functions on the extended reals.

  A product plus a bias row broadcast in two steps is the linear layer `lin`; two products added, plus such a row,
  the two-product layer `lin2`. A product whose left operand is two blocks set side by side, plus such a bias row, is
  the two-product layer of the blocks against the top and the bottom row ranges of the weight (`rowsTop`,
  `rowsBot`): the sum over the contraction index splits at the seam, which uses only that addition of extended reals
  is associative and commutative, so it holds at infinite entries too. The two row ranges are also what the two
  unit-stride slices of the weight at row offsets `0` and `K` read.
-/
import Idealize.ShloMosaic.Lib.ValueIdx
import Idealize.ShloMosaic.Lib.Pipeline.Value
import Idealize.ShloMosaic.PureOps.Ideal.Laws
import proofs.«182243_j11751030522384_2_alg».proof.Proof.LibDense

noncomputable section

open scoped BigOperators

namespace Cert.Lib.CatDot

open Idealize.ShloMosaic Idealize.ShloMosaic.ValueIdx Cert.Lib.BiasDot Cert.Lib.Dense

variable {M K K' N : Nat}

/-- The first `K` rows of a matrix of `K + K'` rows. -/
def rowsTop (Wc : (⟨2, ![K + K', N]⟩ : Shape).Idx → EReal) : (⟨2, ![K, N]⟩ : Shape).Idx → EReal :=
  fun i => Wc (ix2 (Fin.castAdd K' (i 0)) (i 1))

/-- Its last `K'` rows. -/
def rowsBot (Wc : (⟨2, ![K + K', N]⟩ : Shape).Idx → EReal) : (⟨2, ![K', N]⟩ : Shape).Idx → EReal :=
  fun i => Wc (ix2 (Fin.natAdd K (i 0)) (i 1))

/-- The slice at row offset `0` is the first `K` rows. -/
theorem slice_rowsTop (Wc : (⟨2, ![K + K', N]⟩ : Shape).Idx → EReal)
    (hs1 : (⟨2, ![K + K', N]⟩ : Shape).Slices ![0, 0] ⟨2, ![K, N]⟩) :
    extractStridedSlice ⟨2, ![K, N]⟩ ![0, 0] Wc hs1 = rowsTop Wc := by
  funext i
  obtain ⟨k, q, rfl⟩ : ∃ (k : Fin K) (q : Fin N), i = ix2 k q := ⟨i 0, i 1, eq_ix2 i⟩
  exact slice_top Wc hs1 k q

/-- The slice at row offset `K` is the last `K'` rows. -/
theorem slice_rowsBot (Wc : (⟨2, ![K + K', N]⟩ : Shape).Idx → EReal)
    (hs2 : (⟨2, ![K + K', N]⟩ : Shape).Slices ![K, 0] ⟨2, ![K', N]⟩) :
    extractStridedSlice ⟨2, ![K', N]⟩ ![K, 0] Wc hs2 = rowsBot Wc := by
  funext i
  obtain ⟨k, q, rfl⟩ : ∃ (k : Fin K') (q : Fin N), i = ix2 k q := ⟨i 0, i 1, eq_ix2 i⟩
  exact slice_bot Wc hs2 k q

/-- The sum over the contraction index of the side-by-side operand against the weight splits at the seam into the two
    blocks' sums against the first and the last rows of the weight. -/
theorem sum_concat_rows (A : (⟨2, ![M, K]⟩ : Shape).Idx → EReal) (C : (⟨2, ![M, K']⟩ : Shape).Idx → EReal)
    (Wc : (⟨2, ![K + K', N]⟩ : Shape).Idx → EReal)
    (hcat : Shape.Concatenates [(⟨2, ![M, K]⟩ : Shape), ⟨2, ![M, K']⟩] ⟨2, ![M, K + K']⟩ 1) (p : Fin M) (q : Fin N) :
    (∑ k : Fin (K + K'), concatenate ⟨2, ![M, K + K']⟩ 1 [⟨⟨2, ![M, K]⟩, A⟩, ⟨⟨2, ![M, K']⟩, C⟩] hcat (ix2 p k) * Wc (ix2 k q))
      = (∑ k : Fin K, A (ix2 p k) * rowsTop Wc (ix2 k q)) + (∑ k : Fin K', C (ix2 p k) * rowsBot Wc (ix2 k q)) := by
  rw [Fin.sum_univ_add]
  refine congrArg₂ (· + ·) (Finset.sum_congr rfl fun k _ => ?_) (Finset.sum_congr rfl fun k _ => ?_)
  · rw [concat_left]; rfl
  · rw [concat_right]; rfl

/-- The host's linear layer: product, bias broadcast in two steps, sum. -/
theorem host_lin (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none X W)
        (broadcastInDim ⟨2, ![M, N]⟩ ![0, 1] h2 (broadcastInDim ⟨2, ![1, N]⟩ ![1] h1 B))
      = lin X W B := by
  subst hd
  funext i
  obtain ⟨p, q, rfl⟩ : ∃ (p : Fin M) (q : Fin N), i = ix2 p q := ⟨i 0, i 1, eq_ix2 i⟩
  rw [addf_apply, hostRow_apply]
  exact congrArg (fun z => z + B (ix1 q)) (Cert.Lib.PlainDot.dotGeneral_apply none _ X W p q)

/-- Two host products added, then a bias row broadcast in two steps added: the two-product layer. -/
theorem host_lin2 (d : DotDims ⟨2, ![M, K]⟩ ⟨2, ![K, N]⟩ ⟨2, ![M, N]⟩) (hd : d = DotDims.plain M K N)
    (d' : DotDims ⟨2, ![M, K']⟩ ⟨2, ![K', N]⟩ ⟨2, ![M, N]⟩) (hd' : d' = DotDims.plain M K' N)
    (A : FVec Ideal ⟨2, ![M, K]⟩ .f32) (Wa : FVec Ideal ⟨2, ![K, N]⟩ .f32)
    (C : FVec Ideal ⟨2, ![M, K']⟩ .f32) (Wb : FVec Ideal ⟨2, ![K', N]⟩ .f32) (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral d none A Wa) (Host.dotGeneral d' none C Wb))
        (broadcastInDim ⟨2, ![M, N]⟩ ![0, 1] h2 (broadcastInDim ⟨2, ![1, N]⟩ ![1] h1 B))
      = lin2 A Wa C Wb B := by
  subst hd
  subst hd'
  funext i
  obtain ⟨p, q, rfl⟩ : ∃ (p : Fin M) (q : Fin N), i = ix2 p q := ⟨i 0, i 1, eq_ix2 i⟩
  rw [addf_apply, addf_apply, hostRow_apply]
  exact congrArg₂ (fun y z => y + z + B (ix1 q)) (Cert.Lib.PlainDot.dotGeneral_apply none _ A Wa p q)
    (Cert.Lib.PlainDot.dotGeneral_apply none _ C Wb p q)

/-- The host's layer over a side-by-side operand: the concatenation against the whole weight, plus the bias row, is the
    two-product layer of the two blocks against the first and the last rows of the weight. -/
theorem host_concat_lin2 (d : DotDims ⟨2, ![M, K + K']⟩ ⟨2, ![K + K', N]⟩ ⟨2, ![M, N]⟩) (hd : d = DotDims.plain M (K + K') N)
    (A : FVec Ideal ⟨2, ![M, K]⟩ .f32) (C : FVec Ideal ⟨2, ![M, K']⟩ .f32) (Wc : FVec Ideal ⟨2, ![K + K', N]⟩ .f32)
    (B : FVec Ideal ⟨1, ![N]⟩ .f32)
    (hcat : Shape.Concatenates [(⟨2, ![M, K]⟩ : Shape), ⟨2, ![M, K']⟩] ⟨2, ![M, K + K']⟩ 1)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d none
          (concatenate ⟨2, ![M, K + K']⟩ 1 [⟨⟨2, ![M, K]⟩, A⟩, ⟨⟨2, ![M, K']⟩, C⟩] hcat) Wc)
        (broadcastInDim ⟨2, ![M, N]⟩ ![0, 1] h2 (broadcastInDim ⟨2, ![1, N]⟩ ![1] h1 B))
    = lin2 A (rowsTop Wc) C (rowsBot Wc) B := by
  subst hd
  funext i
  obtain ⟨p, q, rfl⟩ : ∃ (p : Fin M) (q : Fin N), i = ix2 p q := ⟨i 0, i 1, eq_ix2 i⟩
  rw [addf_apply, hostRow_apply]
  refine congrArg (fun z => z + B (ix1 q)) ?_
  exact (Cert.Lib.PlainDot.dotGeneral_apply none _ _ Wc p q).trans (sum_concat_rows A C Wc hcat p q)

end Cert.Lib.CatDot

end
-- ==== Proof.RefValue.lean ====
/-
  The reference program's result as a function of its arguments.

  The reference applies three graph layers and a classifier. With N(n) the edges whose destination is node n and
  s(e) the source of edge e (a negative index counted from the end, as the host's gather reads it), one layer maps
  a node table h to
      relu ((h + a) · W + b),   a (n, ·) = ∑ e ∈ N(n), h (s e, ·),
  where the neighbour sums a are the host's gather of the source rows scattered-and-added into a table of zeros by
  destination. That aggregation is carried here as ONE opaque function `agg` of (h, src, dst): both programs spell
  it with the same host operations, so it is never opened. The classifier is h · Wc + bc.
  Entry by entry the host's dot_general, its bias broadcast in two steps and its maximum with a broadcast zero are the
  linear layer `lin` and the positive part `relu`.
-/
import proofs.«182243_j11751030522384_2_alg».proof.Proof.Gen.ReferenceIdeal.Run
import proofs.«182243_j11751030522384_2_alg».proof.Proof.LibCatDot

set_option maxRecDepth 16384

noncomputable section

namespace Cert.ReferenceIdeal.Spec

open Idealize.ShloMosaic Idealize.ShloMosaic.TcCoe Idealize.ShloMosaic.ValueIdx Idealize.SL.Sem
open Cert.ReferenceIdeal Cert.ReferenceIdeal.Gen
open Cert.Lib.BiasDot Cert.Lib.Dense Cert.Lib.CatDot

/-- An array of 400000 edge endpoints. -/
abbrev Edges := (⟨S400000, .i32⟩ : BufTy).Contents (Elt Ideal)

/-- The neighbour sums of a node table: the source rows gathered, then added into a table of zeros by destination. -/
def agg (h : FVec Ideal S50000x512 .f32) (src dst : Edges) : FVec Ideal S50000x512 .f32 :=
  Host.scatterAdd (F := Ideal) scatter_S50000x512_S400000x1_S400000x512_1_0_0_1
    (broadcastInDim S50000x512 ![] bcast_S_S50000x512 (constant (F := Ideal) S_ .f32 0x00000000#32))
    (broadcastInDim S400000x1 ![0] bcast_S400000_S400000x1_0 dst)
    (Host.gather gather_S50000x512_S400000x1_S400000x512_1_0_n_n_0_1_1512 h
      (broadcastInDim S400000x1 ![0] bcast_S400000_S400000x1_0
        (select (cmpi .slt src (broadcastInDim S400000 ![] bcast_S_S400000 (constantI S_ 32 0#32)))
          (addi src (broadcastInDim S400000 ![] bcast_S_S400000 (constantI S_ 32 50000#32))) src)))

/-- One layer in the host's spelling. -/
def hostLayer (h : FVec Ideal S50000x512 .f32) (src dst : Edges) (W : FVec Ideal S512x512 .f32) (b : FVec Ideal S512 .f32) :
    FVec Ideal S50000x512 .f32 :=
  maximumf (addf (Host.dotGeneral (F := Ideal) dot_S50000x512_S512x512_S50000x512_1_0_0_1_n_n none (addf h (agg h src dst)) W)
      (broadcastInDim S50000x512 ![0, 1] bcast_S1x512_S50000x512_0_1 (broadcastInDim S1x512 ![1] bcast_S512_S1x512_1 b)))
    (broadcastInDim S50000x512 ![] bcast_S_S50000x512 (constant (F := Ideal) S_ .f32 0x00000000#32))

/-- The classifier in the host's spelling. -/
def hostHead (h : FVec Ideal S50000x512 .f32) (Wc : FVec Ideal S512x40 .f32) (bc : FVec Ideal S40 .f32) : FVec Ideal S50000x40 .f32 :=
  addf (Host.dotGeneral (F := Ideal) dot_S50000x512_S512x40_S50000x40_1_0_0_1_n_n none h Wc)
    (broadcastInDim S50000x40 ![0, 1] bcast_S1x40_S50000x40_0_1 (broadcastInDim S1x40 ![1] bcast_S40_S1x40_1 bc))

/-- The whole reference: three layers, then the classifier. -/
def hostNet (a0 : FVec Ideal S50000x512 .f32) (a1 a2 : Edges) (a3 : FVec Ideal S512x512 .f32) (a4 : FVec Ideal S512 .f32)
    (a5 : FVec Ideal S512x512 .f32) (a6 : FVec Ideal S512 .f32) (a7 : FVec Ideal S512x512 .f32) (a8 : FVec Ideal S512 .f32)
    (a9 : FVec Ideal S512x40 .f32) (a10 : FVec Ideal S40 .f32) : FVec Ideal S50000x40 .f32 :=
  hostHead (hostLayer (hostLayer (hostLayer a0 a1 a2 a3 a4) a1 a2 a5 a6) a1 a2 a7 a8) a9 a10

set_option maxRecDepth 400000 in
/-- The run's composed term is that. -/
theorem res_eq (m : (ℓ : Loc nD τ sig) → Buf (Elt Ideal) ℓ) (c : Dev nD) :
    Cert.ReferenceIdeal.Value.res_main_v51 (F := Ideal) m c
      = hostNet (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  unfold Cert.ReferenceIdeal.Value.res_main_v51 hostNet hostHead hostLayer agg
  rfl

/-- A host layer is the positive part of the linear layer of h + agg h. -/
theorem hostLayer_eq (h : FVec Ideal S50000x512 .f32) (src dst : Edges) (W : FVec Ideal S512x512 .f32) (b : FVec Ideal S512 .f32) :
    hostLayer h src dst W b = relu (lin (addf h (agg h src dst) : FVec Ideal S50000x512 .f32) W b) :=
  host_lin_relu _ rfl _ W b _ _ _ _

/-- The host classifier is the linear layer. -/
theorem hostHead_eq (h : FVec Ideal S50000x512 .f32) (Wc : FVec Ideal S512x40 .f32) (bc : FVec Ideal S40 .f32) :
    hostHead h Wc bc = lin h Wc bc :=
  host_lin _ rfl h Wc bc _ _

end Cert.ReferenceIdeal.Spec

end
-- ==== Proof.LibPadTail.lean ====
/-
  A padding that only lengthens the last axis at its far end, read at an entry of the original array.

  Zero-padding a weight matrix's columns, or a bias vector, up to a whole number of column tiles adds entries
  past the original extent and moves none: on every axis the low padding is zero and there is no interior
  padding, so the padded array at an index whose last coordinate is below the original extent is the original
  array at the same coordinates. Stated for a matrix padded along its columns and for a vector.
-/
import Idealize.ShloMosaic.Lib.ValueIdx
import Idealize.ShloMosaic.Lib.KernelVsHost

noncomputable section

namespace Cert.Lib.PadTail

open Idealize.ShloMosaic Idealize.ShloMosaic.ValueIdx

variable {α : Type}

/-- A matrix with `B` columns padded to `T` columns: entry `(p, q)` with `q` below `B` is the matrix's entry `(p, q)`. -/
theorem pad_cols_apply {A B T hi : Nat} (x : (⟨2, ![A, B]⟩ : Shape).Idx → α) {u : Shape} (v : u.Idx → α)
    (hp : (⟨2, ![A, B]⟩ : Shape).Pads ![0, 0] ![0, hi] ![0, 0] ⟨2, ![A, T]⟩) (hu : 0 < u.numel)
    (p : Fin A) (q : Fin T) (q' : Fin B) (hq : q'.val = q.val) :
    pad ⟨2, ![A, T]⟩ ![0, 0] ![0, hi] ![0, 0] x v hp hu (ix2 p q) = x (ix2 p q') :=
  pad_apply_of_inside _ _ _ x v hp hu (ix2 p q) (ix2 p q') fun a => by
    match a with
    | ⟨0, _⟩ => show p.val = 0 + p.val * (0 + 1); omega
    | ⟨1, _⟩ => show q.val = 0 + q'.val * (0 + 1); omega

/-- A vector of length `B` padded to length `T`: entry `q` below `B` is the vector's entry `q`. -/
theorem pad_vec_apply {B T hi : Nat} (x : (⟨1, ![B]⟩ : Shape).Idx → α) {u : Shape} (v : u.Idx → α)
    (hp : (⟨1, ![B]⟩ : Shape).Pads ![0] ![hi] ![0] ⟨1, ![T]⟩) (hu : 0 < u.numel)
    (q : Fin T) (q' : Fin B) (hq : q'.val = q.val) :
    pad ⟨1, ![T]⟩ ![0] ![hi] ![0] x v hp hu (ix1 q) = x (ix1 q') :=
  pad_apply_of_inside _ _ _ x v hp hu (ix1 q) (ix1 q') fun a => by
    match a with
    | ⟨0, _⟩ => show q.val = 0 + q'.val * (0 + 1); omega

end Cert.Lib.PadTail

end
-- ==== Proof.Bridge.lean ====
/-
  The two programs compute one function.

  Layer by layer the kernel program and the reference agree: the neighbour sums are spelt with the same host
  operations in both; the kernel's layer adds the bias viewed as a 1 × 512 row and read back, which is the bias; and the
  positive part of the linear layer is the same expression on both sides. For the classifier the kernel program pads
  the weight's columns and the bias from 40 to 128 entries, computes 128 columns and keeps the first 40: column q < 40 of
  the padded product is ∑ k, h (n, k) · W (k, q) + b q with the original W and b, because padding at the far end
  moves no entry — whatever value fills the padding. No finiteness is used: only that the same sums of the same
  products are written on both sides.
-/
import proofs.«182243_j11751030522384_2_alg».proof.Proof.Fold
import proofs.«182243_j11751030522384_2_alg».proof.Proof.RefValue
import proofs.«182243_j11751030522384_2_alg».proof.Proof.LibPadTail

set_option maxRecDepth 16384

noncomputable section

namespace Cert.Bridge

open Idealize.ShloMosaic Idealize.ShloMosaic.TcCoe Idealize.ShloMosaic.ValueIdx
open Cert.KernelIdeal
open Cert.Lib.BiasDot Cert.Lib.Dense Cert.Lib.RowLayers Cert.Lib.PadTail

/-- The neighbour sums are one function in the two programs. -/
theorem agg_eq (h : FVec Ideal S50000x512 .f32) (src dst : Fold.Edges) :
    Fold.agg h src dst = Cert.ReferenceIdeal.Spec.agg h src dst := rfl

/-- A layer of the kernel program is the reference's layer. -/
theorem gin_eq (h : FVec Ideal S50000x512 .f32) (src dst : Fold.Edges) (W : FVec Ideal S512x512 .f32) (b : FVec Ideal S512 .f32) :
    Fold.gin h src dst W b = Cert.ReferenceIdeal.Spec.hostLayer h src dst W b := by
  rw [Cert.ReferenceIdeal.Spec.hostLayer_eq]
  unfold Fold.gin Layer0.layer
  rw [rowVec_reshape, agg_eq]

/-- The first 40 columns of the classifier on the padded weight and bias are the reference's classifier. -/
theorem head_eq (h : FVec Ideal S50000x512 .f32) (Wc : FVec Ideal S512x40 .f32) (bc : FVec Ideal S40 .f32)
    (v : (⟨S_, .f32⟩ : BufTy).Contents (Elt Ideal)) :
    extractStridedSlice S50000x40 ![0, 0]
      (Head.head (M := 50000) h
        (pad S512x128 ![0, 0] ![0, 88] ![0, 0] Wc v Facts₀.pads_S512x40_S512x128_000_0880 Facts₀.h_S_)
        (shapeCast S1x128 (pad S128 ![0] ![88] ![0] bc v Facts₀.pads_S40_S128_0880 Facts₀.h_S_) Facts₀.shapeCasts_S128_S1x128))
      Facts₀.slices_S50000x128_S50000x40_0_0
    = Cert.ReferenceIdeal.Spec.hostHead h Wc bc := by
  rw [Cert.ReferenceIdeal.Spec.hostHead_eq]
  funext i
  obtain ⟨p, q, rfl⟩ : ∃ (p : Fin 50000) (q : Fin 40), i = ix2 p q := ⟨i 0, i 1, eq_ix2 i⟩
  have hq : q.val < 128 := by have := q.isLt; omega
  refine (extractStridedSlice_apply ![0, 0] _ _ (ix2 p q) (ix2 p (⟨q.val, hq⟩ : Fin 128)) (fun a => by
    match a with
    | ⟨0, _⟩ => show p.val = 0 + p.val; omega
    | ⟨1, _⟩ => show q.val = 0 + q.val; omega)).trans ?_
  unfold Head.head
  rw [lin_apply, lin_apply, rowVec_reshape, pad_vec_apply bc v _ _ (⟨q.val, hq⟩ : Fin 128) q rfl]
  refine congrArg (fun z => z + bc (ix1 q)) (Finset.sum_congr rfl fun k _ => ?_)
  rw [pad_cols_apply Wc v _ _ k (⟨q.val, hq⟩ : Fin 128) q rfl]

/-- The kernel program's network is the reference's. -/
theorem net_eq (a0 : FVec Ideal S50000x512 .f32) (a1 a2 : Fold.Edges) (a3 : FVec Ideal S512x512 .f32) (a4 : FVec Ideal S512 .f32)
    (a5 : FVec Ideal S512x512 .f32) (a6 : FVec Ideal S512 .f32) (a7 : FVec Ideal S512x512 .f32) (a8 : FVec Ideal S512 .f32)
    (a9 : FVec Ideal S512x40 .f32) (a10 : FVec Ideal S40 .f32) :
    Fold.kernelNet a0 a1 a2 a3 a4 a5 a6 a7 a8 a9 a10 = Cert.ReferenceIdeal.Spec.hostNet a0 a1 a2 a3 a4 a5 a6 a7 a8 a9 a10 := by
  unfold Fold.kernelNet Cert.ReferenceIdeal.Spec.hostNet
  rw [head_eq, gin_eq, gin_eq, gin_eq]

end Cert.Bridge

end
-- ==== Proof.lean ====
/-
  The certificate: a three-layer graph network with a 40-class classifier, as a kernel program against a plain
  reference, equal over the extended reals.

  Each layer maps a node table h to relu ((h + a) · W + b), where row n of a is the sum of the rows of h at the
  sources of the edges into n; the classifier is h · Wc + bc. The kernel program computes each layer's dense part in a
  kernel region over 25 blocks of 2000 rows (the aggregation stays on the host in both programs), and the classifier
  in a fourth region on the weight and bias padded from 40 to 128 columns, slicing the 40 back out.

  * Frames: the two kernel programs' are the generated ones; the reference's is its generated run with the result
    dropped.
  * The idealization rewrote nothing, so there is nothing to preserve.
  * Equal results: every region's output array is one whole-array function of the arrays it was entered with
    (Region0 … Region3), so the kernel program is one line of host operations and its result one term of the
    arguments (KernelRun, Fold); the reference's run gives its term (RefValue); and the two terms are one function,
    layer by layer (Bridge). Nothing here needs the inputs to be finite.
-/
import proofs.«182243_j11751030522384_2_alg».proof.Defs
import proofs.«182243_j11751030522384_2_alg».proof.Proof.Gen.Kernel
import proofs.«182243_j11751030522384_2_alg».proof.Proof.Gen.Kernel.Frame
import proofs.«182243_j11751030522384_2_alg».proof.Proof.Gen.KernelIdeal
import proofs.«182243_j11751030522384_2_alg».proof.Proof.Gen.KernelIdeal.Frame
import proofs.«182243_j11751030522384_2_alg».proof.Proof.Gen.ReferenceIdeal
import proofs.«182243_j11751030522384_2_alg».proof.Proof.Gen.ReferenceIdeal.Run
import proofs.«182243_j11751030522384_2_alg».proof.Proof.Gen.Pre_finite_inputs
import proofs.«182243_j11751030522384_2_alg».proof.Proof.KernelRun
import proofs.«182243_j11751030522384_2_alg».proof.Proof.Fold
import proofs.«182243_j11751030522384_2_alg».proof.Proof.RefValue
import proofs.«182243_j11751030522384_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the network of the launch contents of the arguments, which agree. -/
theorem algebraic : Cert.algebraic_KernelIdeal_ReferenceIdeal := by
  intro m ρ m' ρ' _ hagree
  refine ⟨fun c => Cert.KernelIdeal.Fold.kernelNet
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    ?_, ?_⟩
  · exact (θ_run Cert.KernelIdeal.defs _ _).mono
      (fun r h c => ⟨(h c).1.trans (Cert.KernelIdeal.Fold.result_eq m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Spec.res_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact (Cert.Bridge.net_eq _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
